-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256x128 .f32) (main_arg6 : FVec F S256x128 .f32) (main_arg7 : FVec F S128 .f32) (main_arg8 : FVec F S128x2 .f32) (main_arg9 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1000000 32) (main_arg2 : FVec F S256x256 .f32) (main_arg3 : FVec F S256x256 .f32) (main_arg4 : FVec F S256 .f32) (main_arg5 : FVec F S256x128 .f32) (main_arg6 : FVec F S256x128 .f32) (main_arg7 : FVec F S128 .f32) (main_arg8 : FVec F S128x2 .f32) (main_arg9 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1000000 : Shape := ⟨2, ![2, 1000000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x256 : Shape := ⟨2, ![1000000, 256]⟩
abbrev S1x256 : Shape := ⟨2, ![1, 256]⟩
abbrev S4000x256 : Shape := ⟨2, ![4000, 256]⟩
abbrev S4000x1 : Shape := ⟨2, ![4000, 1]⟩
abbrev S1x128 : Shape := ⟨2, ![1, 128]⟩
abbrev S1x2 : Shape := ⟨2, ![1, 2]⟩
abbrev S100000x2 : Shape := ⟨2, ![100000, 2]⟩
abbrev S4000x2 : Shape := ⟨2, ![4000, 2]⟩
abbrev S4000x128 : Shape := ⟨2, ![4000, 128]⟩
abbrev S4000 : Shape := ⟨1, ![4000]⟩

abbrev nBuf : Space → Nat
  | .hbm => 73
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x256, .bf16⟩
  | .hbm, ⟨35, _⟩ => ⟨S256x256, .bf16⟩
  | .hbm, ⟨36, _⟩ => ⟨S256x256, .bf16⟩
  | .hbm, ⟨37, _⟩ => ⟨S256x128, .bf16⟩
  | .hbm, ⟨38, _⟩ => ⟨S256x128, .bf16⟩
  | .hbm, ⟨39, _⟩ => ⟨S128x2, .bf16⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x256, .bf16⟩
  | .hbm, ⟨49, _⟩ => ⟨S1000000x256, .f32⟩
  | .hbm, ⟨50, _⟩ => ⟨S_, .f32⟩
  | .hbm, ⟨51, _⟩ => ⟨S100000x256, .f32⟩
  | .hbm, ⟨52, _⟩ => ⟨S1000000x1, .i32⟩
  | .hbm, ⟨53, _⟩ => ⟨S100000x256, .f32⟩
  | .hbm, ⟨54, _⟩ => ⟨S1x256, .f32⟩
  | .hbm, ⟨55, _⟩ => ⟨S100000x256, .bf16⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x256, .bf16⟩
  | .hbm, ⟨65, _⟩ => ⟨S1000000x256, .f32⟩
  | .hbm, ⟨66, _⟩ => ⟨S_, .f32⟩
  | .hbm, ⟨67, _⟩ => ⟨S100000x256, .f32⟩
  | .hbm, ⟨68, _⟩ => ⟨S1000000x1, .i32⟩
  | .hbm, ⟨69, _⟩ => ⟨S100000x256, .f32⟩
  | .hbm, ⟨70, _⟩ => ⟨S1x128, .f32⟩
  | .hbm, ⟨71, _⟩ => ⟨S1x2, .f32⟩
  | .hbm, ⟨72, _⟩ => ⟨S100000x2, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S4000x256, .bf16⟩
  | .local _ .vmem, ⟨5, _⟩ => ⟨S4000x256, .bf16⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S4000x256, .bf16⟩
  | .local _ .vmem, ⟨10, _⟩ => ⟨S4000x256, .bf16⟩
  | .local _ .vmem, ⟨11, _⟩ => ⟨S4000x256, .f32⟩
  | .local _ .vmem, ⟨12, _⟩ => ⟨S4000x256, .f32⟩
  | .local _ .vmem, ⟨13, _⟩ => ⟨S4000x1, .f32⟩
  | .local _ .vmem, ⟨14, _⟩ => ⟨S4000x1, .f32⟩
  | .local _ .vmem, ⟨15, _⟩ => ⟨S4000x256, .bf16⟩
  | .local _ .vmem, ⟨16, _⟩ => ⟨S4000x256, .bf16⟩
  | .local _ .vmem, ⟨17, _⟩ => ⟨S256x128, .bf16⟩
  | .local _ .vmem, ⟨18, _⟩ => ⟨S256x128, .bf16⟩
  | .local _ .vmem, ⟨19, _⟩ => ⟨S1x128, .f32⟩
  | .local _ .vmem, ⟨20, _⟩ => ⟨S128x2, .bf16⟩
  | .local _ .vmem, ⟨21, _⟩ => ⟨S1x2, .f32⟩
  | .local _ .vmem, ⟨22, _⟩ => ⟨S4000x2, .f32⟩
  | .local _ .vmem, ⟨23, _⟩ => ⟨S4000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bitsLt_bf16_f32 : FTy.bits .bf16 < FTy.bits .f32
  bcast_S_S100000x256 : S_.BroadcastsInDim S100000x256 (![] : Fin 0 → Fin S100000x256.rank)
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  packedbf16_S4000x256_S4000x256_0_0 : (Rect.unit (s := S4000x256) ![0, 0] S4000x256.size inb_S4000x256_S4000x256_0_0).PackedRows (EltTy.packing .bf16)
  shapeCasts_S128_S1x128 : S128.ShapeCasts S1x128
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  scatter_S100000_S1000000x1_S1000000_n_0_0_1_wf : ScatterDims.WF S100000 S1000000x1 S1000000 [] [0] [0] 1
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .bf16 = 32 ∨ (Rect.block (s := S100000x256) S4000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .bf16 = 32 ∨ (Rect.block (s := S100000x256) S4000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .bf16 = 32 ∨ (Rect.block (s := S100000x256) S4000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .bf16 = 32 ∨ (Rect.block (s := S128x2) S128x2.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x2.size a ≤ S100000x2.size a
  hwx1_8 : ∀ i : grid1.Coords, EltTy.bits .f32 = 32 ∨ (Rect.block (s := S100000x2) S4000x2.size (cc1_transform_8 i) (hinb1_8 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_v32) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S4000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1000000 : Shape := ⟨2, ![2, 1000000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x256 : Shape := ⟨2, ![1000000, 256]⟩
abbrev S100000x1 : Shape := ⟨2, ![100000, 1]⟩
abbrev S1x256 : Shape := ⟨2, ![1, 256]⟩
abbrev S100000x128 : Shape := ⟨2, ![100000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 102
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x256, .f32⟩
  | .hbm, ⟨42, _⟩ => ⟨S_, .f32⟩
  | .hbm, ⟨43, _⟩ => ⟨S100000x256, .f32⟩
  | .hbm, ⟨44, _⟩ => ⟨S1000000x1, .i32⟩
  | .hbm, ⟨45, _⟩ => ⟨S100000x256, .f32⟩
  | .hbm, ⟨46, _⟩ => ⟨S100000x1, .f32⟩
  | .hbm, ⟨47, _⟩ => ⟨S100000x256, .f32⟩
  | .hbm, ⟨48, _⟩ => ⟨S100000x256, .f32⟩
  | .hbm, ⟨49, _⟩ => ⟨S100000x256, .f32⟩
  | .hbm, ⟨50, _⟩ => ⟨S1x256, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x256, .f32⟩
  | .hbm, ⟨67, _⟩ => ⟨S_, .f32⟩
  | .hbm, ⟨68, _⟩ => ⟨S100000x256, .f32⟩
  | .hbm, ⟨69, _⟩ => ⟨S1000000x1, .i32⟩
  | .hbm, ⟨70, _⟩ => ⟨S100000x256, .f32⟩
  | .hbm, ⟨71, _⟩ => ⟨S100000x1, .f32⟩
  | .hbm, ⟨72, _⟩ => ⟨S100000x256, .f32⟩
  | .hbm, ⟨73, _⟩ => ⟨S100000x256, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x2, .f32⟩
  | .hbm, ⟨84, _⟩ => ⟨S1x2, .f32⟩
  | .hbm, ⟨85, _⟩ => ⟨S100000x2, .f32⟩
  | .hbm, ⟨86, _⟩ => ⟨S100000x2, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x2, .f32⟩
  | .hbm, ⟨94, _⟩ => ⟨S100000x2, .f32⟩
  | .hbm, ⟨95, _⟩ => ⟨S100000x2, .f32⟩
  | .hbm, ⟨96, _⟩ => ⟨S_, .f32⟩
  | .hbm, ⟨97, _⟩ => ⟨S100000, .f32⟩
  | .hbm, ⟨98, _⟩ => ⟨S100000x1, .f32⟩
  | .hbm, ⟨99, _⟩ => ⟨S100000x1, .f32⟩
  | .hbm, ⟨100, _⟩ => ⟨S100000x2, .f32⟩
  | .hbm, ⟨101, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_call3_cst_0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_cst_1 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_v59 : Ref sig .tc := ⟨.hbm, 101, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  scatter_S100000_S1000000x1_S1000000_n_0_0_1_wf : ScatterDims.WF S100000 S1000000x1 S1000000 [] [0] [0] 1
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  dot_S100000x128_S128x2_S100000x2_1_0_0_1_n_n_wf : DotDims.WF S100000x128 S128x2 S100000x2 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel's run with every buffer named: @main is six segments (three stretches of host
  operations, the first pallas_call, one more stretch, the second pallas_call); every weakly fair execution
  terminates without a fault, and at the end each unscoped TensorCore buffer holds the last segment boundary's
  contents `Gen.W6` — for a pallas_call's arrays what its write-backs leave, for every other buffer the fold of
  the host operations before it.  The frame claim keeps only the ten argument arrays of this; the value claim
  needs the result array as well, so the run is stated here for all of them at once.
-/
import proofs.«169809_j36979668418994_2_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.RunAll

end
-- ==== Proof.LibTypedRefs.lean ====
/- A general fact about typed references to host buffers. An operation of an inlined module-local function is stated at
   the tensor value's type and moved to its buffer's type, and back, by transport along the equation between the two
   types. Moving a value to the buffer's type and back gives the value: the two transports of ONE typed reference cancel,
   whatever the reference, the signature and the element values. A composed host value in which every result of an
   inlined operation is consumed by another inlined operation loses all its transports by rewriting with this one
   equation; what is left are the transports at buffers where an inlined operation meets an operation of the main
   function, each the identity at a literal reference (by rfl, one buffer at a time, over a variable value).
   Nothing here depends on a particular program. -/
import Idealize.ShloMosaic.Lib.StableHlo

namespace Cert.Lib.TypedRefs

open Idealize.ShloMosaic Idealize.ShloMosaic.StableHlo

/-- Moving a value to a typed reference's buffer type and back gives the value. -/
theorem ofBuf_toBuf {sig : RefSig} {Val : EltTy → Type} {T : BufTy} (x : TRef sig T) (v : T.Contents Val) :
    x.ofBuf (x.toBuf v) = v := by
  obtain ⟨r, h, _, _⟩ := x; subst h; rfl

/-- Moving a buffer's contents to the value's type and back gives the contents. -/
theorem toBuf_ofBuf {sig : RefSig} {Val : EltTy → Type} {T : BufTy} (x : TRef sig T) (v : x.ref.ty.Contents Val) :
    x.toBuf (x.ofBuf v) = v := by
  obtain ⟨r, h, _, _⟩ := x; subst h; rfl

end Cert.Lib.TypedRefs
-- ==== Proof.KernelChains.lean ====
/-
  The kernel program's host operations around its two pallas_calls, as functions of the arrays they read: the scatter
  and gather index columns made from the edge list, the in-degree count and its guarded reciprocal, and the neighbour
  sum of a feature array (gather of the source rows, scatter-add into the destination rows).  Each is the reference's
  own stage: the operations and their dimension numbers are the same, and the kernel's narrowing of the gathered
  features to bf16 and back is the identity on the extended reals.
-/
import proofs.«169809_j36979668418994_2_alg».proof.Proof.Gen.KernelIdeal
import proofs.«169809_j36979668418994_2_alg».proof.Proof.RefReadP

set_option maxRecDepth 16384

noncomputable section

namespace Cert.Sage.Kernel

open Idealize.ShloMosaic Idealize.ShloMosaic.TcCoe Cert.KernelIdeal Cert.KernelIdeal.Gen

/-! ## The index arrays and the two host chains, as the kernel's program spells them -/

/-- The edges' destination nodes, as a column of scatter indices. -/
def dstK (e : IVec S2x1000000 32) : IVec S1000000x1 32 :=
  broadcastInDim S1000000x1 ![0] bcast_S1000000_S1000000x1_0
    (shapeCast S1000000 (extractStridedSlice S1x1000000 ![1, 0] e slices_S2x1000000_S1x1000000_1_0) shapeCasts_S1x1000000_S1000000)

/-- The edges' source nodes (a negative one wrapped once), as a column of gather indices. -/
def srcK (e : IVec S2x1000000 32) : IVec S1000000x1 32 :=
  broadcastInDim S1000000x1 ![0] bcast_S1000000_S1000000x1_0
    (select
      (cmpi .slt (shapeCast S1000000 (extractStridedSlice S1x1000000 ![0, 0] e slices_S2x1000000_S1x1000000_0_0) shapeCasts_S1x1000000_S1000000)
        (broadcastInDim S1000000 ![] bcast_S_S1000000 (constantI S_ 32 0#32)))
      (addi (shapeCast S1000000 (extractStridedSlice S1x1000000 ![0, 0] e slices_S2x1000000_S1x1000000_0_0) shapeCasts_S1x1000000_S1000000)
        (broadcastInDim S1000000 ![] bcast_S_S1000000 (constantI S_ 32 100000#32)))
      (shapeCast S1000000 (extractStridedSlice S1x1000000 ![0, 0] e slices_S2x1000000_S1x1000000_0_0) shapeCasts_S1x1000000_S1000000))

theorem dstK_eq6 (e : IVec S2x1000000 32) : dstK e = Cert.ReferenceIdeal.ReadP.val_main_v6 (F := Ideal) e := rfl
theorem dstK_eq23 (e : IVec S2x1000000 32) : dstK e = Cert.ReferenceIdeal.ReadP.val_main_v23 (F := Ideal) e := rfl
theorem dstK_eq43 (e : IVec S2x1000000 32) : dstK e = Cert.ReferenceIdeal.ReadP.val_main_v43 (F := Ideal) e := rfl
theorem srcK_eq20 (e : IVec S2x1000000 32) : srcK e = Cert.ReferenceIdeal.ReadP.val_main_v20 (F := Ideal) e := rfl
theorem srcK_eq40 (e : IVec S2x1000000 32) : srcK e = Cert.ReferenceIdeal.ReadP.val_main_v40 (F := Ideal) e := rfl

/-- The number of edges into each node. -/
def cntK (e : IVec S2x1000000 32) : FVec Ideal S100000 .f32 :=
  Host.scatterAdd scatter_S100000_S1000000x1_S1000000_n_0_0_1
    (broadcastInDim S100000 ![] bcast_S_S100000 (constant S_ .f32 0x00000000#32)) (dstK e)
    (broadcastInDim S1000000 ![] bcast_S_S1000000 (constant S_ .f32 0x3F800000#32))

theorem cntK_eq (e : IVec S2x1000000 32) : cntK e = Cert.ReferenceIdeal.ReadP.val_main_v7 (F := Ideal) e := by
  unfold cntK Cert.ReferenceIdeal.ReadP.val_main_v7
  rw [dstK_eq6]
  generalize Cert.ReferenceIdeal.ReadP.val_main_v6 (F := Ideal) e = I
  rfl

/-- The inverse degrees: one over the count where it is positive, zero elsewhere. -/
def dinvK (e : IVec S2x1000000 32) : FVec Ideal S100000 .f32 :=
  select (cmpf .ogt (cntK e) (broadcastInDim S100000 ![] bcast_S_S100000 (constant S_ .f32 0x00000000#32)))
    (Host.divf (broadcastInDim S100000 ![] bcast_S_S100000 (constant S_ .f32 0x3F800000#32))
      (maximumf (cntK e) (broadcastInDim S100000 ![] bcast_S_S100000 (constant S_ .f32 0x3F800000#32))))
    (broadcastInDim S100000 ![] bcast_S_S100000 (constant S_ .f32 0x00000000#32))

theorem dinvK_eq (e : IVec S2x1000000 32) : dinvK e = Cert.ReferenceIdeal.ReadP.val_main_v14 (F := Ideal) e := by
  unfold dinvK Cert.ReferenceIdeal.ReadP.val_main_v14 Cert.ReferenceIdeal.ReadP.val_main_v9 Cert.ReferenceIdeal.ReadP.val_main_v13 Cert.ReferenceIdeal.ReadP.val_main_v11
  rw [cntK_eq]
  generalize Cert.ReferenceIdeal.ReadP.val_main_v7 (F := Ideal) e = N
  rfl

/-- The neighbour sum of a feature array: each edge's source row added into its destination row. -/
def aggK (f : FVec Ideal S100000x256 .f32) (e : IVec S2x1000000 32) : FVec Ideal S100000x256 .f32 :=
  Host.scatterAdd scatter_S100000x256_S1000000x1_S1000000x256_1_0_0_1
    (broadcastInDim S100000x256 ![] bcast_S_S100000x256 (constant S_ .f32 0x00000000#32)) (dstK e)
    (extf .f32 (Host.gather gather_S100000x256_S1000000x1_S1000000x256_1_0_n_n_0_1_1256 (truncf .bf16 f bitsLt_bf16_f32) (srcK e)) bitsLt_bf16_f32)

/-- Narrowing the features before the gather and widening the rows after it changes nothing on the extended reals. -/
theorem gather_widen (f : FVec Ideal S100000x256 .f32) (I : IVec S1000000x1 32) :
    extf .f32 (Host.gather gather_S100000x256_S1000000x1_S1000000x256_1_0_n_n_0_1_1256 (truncf .bf16 f bitsLt_bf16_f32) I) bitsLt_bf16_f32
      = Host.gather Cert.ReferenceIdeal.gather_S100000x256_S1000000x1_S1000000x256_1_0_n_n_0_1_1256 f I := rfl

theorem aggK_eq1 (x0 : FVec Ideal S100000x256 .f32) (e : IVec S2x1000000 32) : aggK x0 e = Cert.ReferenceIdeal.ReadP.val_main_v24 (F := Ideal) x0 e := by
  unfold aggK Cert.ReferenceIdeal.ReadP.val_main_v24 Cert.ReferenceIdeal.ReadP.val_main_v21
  rw [dstK_eq23, srcK_eq20, gather_widen]
  generalize Cert.ReferenceIdeal.ReadP.val_main_v23 (F := Ideal) e = I1
  generalize Cert.ReferenceIdeal.ReadP.val_main_v20 (F := Ideal) e = I2
  rfl

theorem aggK_eq2 (x0 : FVec Ideal S100000x256 .f32) (x1 : IVec S2x1000000 32) (x2 x3 : FVec Ideal S256x256 .f32) (x4 : FVec Ideal S256 .f32) :
    aggK (Cert.ReferenceIdeal.ReadP.val_main_v34 (F := Ideal) x0 x1 x2 x3 x4) x1 = Cert.ReferenceIdeal.ReadP.val_main_v44 (F := Ideal) x0 x1 x2 x3 x4 := by
  unfold aggK Cert.ReferenceIdeal.ReadP.val_main_v44 Cert.ReferenceIdeal.ReadP.val_main_v41
  rw [dstK_eq43, srcK_eq40, gather_widen]
  generalize Cert.ReferenceIdeal.ReadP.val_main_v43 (F := Ideal) x1 = I1
  generalize Cert.ReferenceIdeal.ReadP.val_main_v40 (F := Ideal) x1 = I2
  generalize Cert.ReferenceIdeal.ReadP.val_main_v34 (F := Ideal) x0 x1 x2 x3 x4 = H
  rfl

end Cert.Sage.Kernel

end
-- ==== Proof.LibAfter.lean ====
/-
  A general fact about a straight line of host operations: running one list of operations after another is
  running their concatenation.
-/
import Idealize.ShloMosaic.Lib.StableHlo.Run

namespace Idealize.ShloMosaic.StableHlo

variable {τ : Topo} {sig : RefSig} {Val : EltTy → Type}

/-- The buffer contents after the operations `l₁ ++ l₂` are the contents after `l₂`, started from the contents
    after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.KernelHost0.lean ====
/-
  What the first pallas_call finds in its six input arrays, read off the fold of the host operations before it: the
  neighbour sum of the features, the inverse degrees as a column, the features (their narrowing is the identity on the
  extended reals), the two weight matrices, and the bias as a row — each in the reference's own terms.
-/
import proofs.«169809_j36979668418994_2_alg».proof.Proof.Gen.KernelIdeal.Frame
import proofs.«169809_j36979668418994_2_alg».proof.Proof.KernelChains
import proofs.«169809_j36979668418994_2_alg».proof.Proof.LibAfter
import proofs.«169809_j36979668418994_2_alg».proof.Proof.LibTypedRefs

set_option maxRecDepth 16384

noncomputable section

namespace Cert.Sage.Kernel

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- The neighbour sum of the features, as the reference computes it. -/
theorem V3_agg : W3 m ρ c (Proc.devRef .tc main_v32) = Cert.ReferenceIdeal.ReadP.val_main_v24 (F := Ideal) (m ((c : Thread nD τ).loc main_arg0)) (m ((c : Thread nD τ).loc main_arg1)) := by
  show StableHlo.after hostOps0_2 (StableHlo.after hostOps0_1 (StableHlo.after hostOps0 (W0 m ρ c))) _ = _
  rw [← StableHlo.after_append, ← StableHlo.after_append]
  simp only [hostOps0, hostOps0_1, hostOps0_2, List.cons_append, List.nil_append]
  after_results_simp
  refine Eq.trans ?_ (aggK_eq1 (m ((c : Thread nD τ).loc main_arg0)) (m ((c : Thread nD τ).loc main_arg1)))
  unfold aggK dstK srcK
  rfl

/-- The values a called function's buffers carry are the values: moving a value to a buffer's type and back, or
    reading a literal buffer at its own type, changes nothing. -/
theorem where_transports (A : IVec S100000 1) (B : FVec Ideal S100000 .f32) (C : FVec Ideal S_ .f32) :
    (TRef.of (T := ⟨S100000, .f32⟩) main_v14).toBuf (Val := Elt Ideal)
      (select ((TRef.of (T := ⟨S100000, .i1⟩) main_v9).ofBuf (Val := Elt Ideal) A)
        ((TRef.of (T := ⟨S100000, .f32⟩) main_v13).ofBuf (Val := Elt Ideal) B)
        (broadcastInDim S100000 ![] bcast_S_S100000 (id ((TRef.of (T := ⟨S_, .f32⟩) main_cst_4).ofBuf (Val := Elt Ideal) C))))
      = select A B (broadcastInDim S100000 ![] bcast_S_S100000 C) := rfl

/-- The inverse degrees, as a column. -/
theorem V3_dinv : W3 m ρ c (Proc.devRef .tc main_v15)
    = shapeCast S100000x1 (Cert.ReferenceIdeal.ReadP.val_main_v14 (F := Ideal) (m ((c : Thread nD τ).loc main_arg1))) shapeCasts_S100000_S100000x1 := by
  show StableHlo.after hostOps0_2 (StableHlo.after hostOps0_1 (StableHlo.after hostOps0 (W0 m ρ c))) _ = _
  rw [← StableHlo.after_append, ← StableHlo.after_append]
  simp only [hostOps0, hostOps0_1, hostOps0_2, List.cons_append, List.nil_append]
  after_results_simp
  simp only [Cert.Lib.TypedRefs.ofBuf_toBuf]
  generalize hN : Host.scatterAdd (F := Ideal) scatter_S100000_S1000000x1_S1000000_n_0_0_1 _ _ _ = N
  have eN : N = cntK (m ((c : Thread nD τ).loc main_arg1)) := hN.symm.trans (by unfold cntK dstK; rfl)
  generalize hA : cmpf (F := Ideal) CmpFPredicate.ogt _ _ = A
  generalize hB : Host.divf (F := Ideal) _ _ = B
  generalize hC : constant (F := Ideal) S_ FTy.f32 0#32 = C
  refine Eq.trans (congrArg (fun v => shapeCast S100000x1 v shapeCasts_S100000_S100000x1) (where_transports A B C)) ?_
  refine congrArg (fun v => shapeCast S100000x1 v shapeCasts_S100000_S100000x1) ?_
  rw [← dinvK_eq, ← hA, ← hB, ← hC, eN]
  rfl

/-- The features. -/
theorem V3_x : W3 m ρ c (Proc.devRef .tc main_v16) = (m ((c : Thread nD τ).loc main_arg0)) := by
  show StableHlo.after hostOps0_2 (StableHlo.after hostOps0_1 (StableHlo.after hostOps0 (W0 m ρ c))) _ = _
  rw [← StableHlo.after_append, ← StableHlo.after_append]
  simp only [hostOps0, hostOps0_1, hostOps0_2, List.cons_append, List.nil_append]
  after_results_simp
  rfl

/-- The first layer's left weights. -/
theorem V3_wl : W3 m ρ c (Proc.devRef .tc main_v17) = (m ((c : Thread nD τ).loc main_arg2)) := by
  show StableHlo.after hostOps0_2 (StableHlo.after hostOps0_1 (StableHlo.after hostOps0 (W0 m ρ c))) _ = _
  rw [← StableHlo.after_append, ← StableHlo.after_append]
  simp only [hostOps0, hostOps0_1, hostOps0_2, List.cons_append, List.nil_append]
  after_results_simp
  rfl

/-- The first layer's right weights. -/
theorem V3_wr : W3 m ρ c (Proc.devRef .tc main_v18) = (m ((c : Thread nD τ).loc main_arg3)) := by
  show StableHlo.after hostOps0_2 (StableHlo.after hostOps0_1 (StableHlo.after hostOps0 (W0 m ρ c))) _ = _
  rw [← StableHlo.after_append, ← StableHlo.after_append]
  simp only [hostOps0, hostOps0_1, hostOps0_2, List.cons_append, List.nil_append]
  after_results_simp
  rfl

/-- The first layer's bias, as a row. -/
theorem V3_b : W3 m ρ c (Proc.devRef .tc main_v33) = shapeCast S1x256 (m ((c : Thread nD τ).loc main_arg4)) shapeCasts_S256_S1x256 := by
  show StableHlo.after hostOps0_2 (StableHlo.after hostOps0_1 (StableHlo.after hostOps0 (W0 m ρ c))) _ = _
  rw [← StableHlo.after_append, ← StableHlo.after_append]
  simp only [hostOps0, hostOps0_1, hostOps0_2, List.cons_append, List.nil_append]
  after_results_simp
  rfl

end Cert.Sage.Kernel

end
-- ==== Proof.Spec.lean ====
/-
  Two scalar functions the two programs share.  One entry of a SAGE layer: from a node's row `a` of aggregated
  neighbour features scaled by the node's inverse degree `d`, its own row `x`, a column `wl`, `wr` of each weight
  matrix and a bias entry `b`, the entry is `max ((∑ k, (a k * d) * wl k + b) + ∑ k, x k * wr k) z` (`z` the zero the
  rectifier compares with).  And the last step of the network: the log-softmax of a row of two logits `a0`, `a1`
  read at an entry whose logit is `a`, in the form "logit minus (row maximum plus the logarithm of the sum of
  the shifted exponentials)", on the extended reals.
-/
import Idealize.ShloMosaic.PureOps.Ideal
import Mathlib.Algebra.BigOperators.Group.Finset.Basic

noncomputable section

namespace Cert.Sage

open Idealize.ShloMosaic

/-- One entry of a SAGE layer followed by the rectifier. -/
def layerAt {K : ℕ} (a x : Fin K → EReal) (d : EReal) (wl wr : Fin K → EReal) (b z : EReal) : EReal :=
  max ((∑ k, (a k * d) * wl k + b) + ∑ k, x k * wr k) z

/-- A layer entry depends on its rows, columns and scalars only through their values. -/
theorem layerAt_congr {K : ℕ} {a a' x x' : Fin K → EReal} {d d' : EReal} {wl wl' wr wr' : Fin K → EReal} {b b' z : EReal}
    (ha : ∀ k, a k = a' k) (hx : ∀ k, x k = x' k) (hd : d = d') (hwl : ∀ k, wl k = wl' k) (hwr : ∀ k, wr k = wr' k)
    (hb : b = b') : layerAt a x d wl wr b z = layerAt a' x' d' wl' wr' b' z := by
  rw [funext ha, funext hx, hd, funext hwl, funext hwr, hb]

/-- One logit: a row of the second layer's output against a column of the classifier's weights, plus its bias. -/
def logitAt {K : ℕ} (h : Fin K → EReal) (w : Fin K → EReal) (b : EReal) : EReal :=
  (∑ k, h k * w k) + b

/-- A logit depends on its row, column and bias only through their values. -/
theorem logitAt_congr {K : ℕ} {h h' w w' : Fin K → EReal} {b b' : EReal} (hh : ∀ k, h k = h' k) (hw : ∀ k, w k = w' k)
    (hb : b = b') : logitAt h w b = logitAt h' w' b' := by
  rw [funext hh, funext hw, hb]

/-- `a - (m + log (exp (a0 - m) + exp (a1 - m)))` with `m = max a0 a1`. -/
def lsm (a0 a1 a : EReal) : EReal :=
  a - (max a0 a1 + Ideal.log (Ideal.exp (a0 - max a0 a1) + Ideal.exp (a1 - max a0 a1)))

end Cert.Sage

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.KernelBody0.lean ====
/-
  A SAGE layer's arithmetic inside a kernel body, at one entry.  For a block of `M` rows: the aggregated block times
  the broadcast inverse-degree column, narrowed, times the left weights, plus the broadcast bias row, plus the narrowed
  feature block times the right weights, rectified and narrowed — at row `p`, column `q` this is the layer entry
  `layerAt` of row `p` of the two blocks, entry `p` of the column, column `q` of the two weight matrices and entry `q`
  of the bias row.  The narrowing conversions are the identity on the extended reals, and a product into the zero
  accumulator is the plain sum over the contracted coordinate.  The first kernel's stored value is this at
  256 → 256 features.
-/
import proofs.«169809_j36979668418994_2_alg».proof.Proof.Gen.KernelIdeal.Skeleton
import proofs.«169809_j36979668418994_2_alg».proof.Proof.Spec
import proofs.«169809_j36979668418994_2_alg».proof.Proof.LibPlainMatmul
import proofs.«169809_j36979668418994_2_alg».proof.Proof.LibBroadcastReads
import Idealize.ShloMosaic.Lib.ValueLayout
import Idealize.ShloMosaic.Lib.Pipeline.Value

noncomputable section

namespace Cert.Sage.Kernel

open Idealize.ShloMosaic Idealize.ShloMosaic.ValueIdx Cert.KernelIdeal Cert.KernelIdeal.Gen Cert.Lib.PlainMatmul Cert.Lib.BroadcastReads

/-- One entry of a layer computed on blocks. -/
theorem layer_apply {M K N : ℕ} (v0 : FVec Ideal ⟨2, ![M, K]⟩ .f32) (v2 : FVec Ideal ⟨2, ![M, 1]⟩ .f32) (v7 : FVec Ideal ⟨2, ![M, K]⟩ .bf16)
    (v9 v16 : FVec Ideal ⟨2, ![K, N]⟩ .bf16) (v12 : FVec Ideal ⟨2, ![1, N]⟩ .f32)
    (h1 : (⟨2, ![M, 1]⟩ : Shape).Broadcasts ⟨2, ![M, K]⟩) (h2 : (⟨2, ![1, N]⟩ : Shape).Broadcasts ⟨2, ![M, N]⟩)
    (hb : FTy.bf16.bits < FTy.f32.bits) (p : Fin M) (q : Fin N) :
    truncf (F := Ideal) .bf16
        (maximumf
          (addf
            (addf
              (matmul (DotDims.plain M K N) none (truncf (F := Ideal) .bf16 (mulf v0 (broadcastTo ⟨2, ![M, K]⟩ v2 h1)) hb) v9
                (constant ⟨2, ![M, N]⟩ .f32 0x00000000#32))
              (broadcastTo ⟨2, ![M, N]⟩ v12 h2))
            (matmul (DotDims.plain M K N) none v7 v16 (constant ⟨2, ![M, N]⟩ .f32 0x00000000#32)))
          (broadcast ⟨2, ![M, N]⟩ (FloatOps.ofBits .f32 0x00000000#32)))
        hb (ix2 p q)
      = layerAt (fun k : Fin K => v0 (ix2 p k)) (fun k : Fin K => v7 (ix2 p k)) (v2 (ix2 p (0 : Fin 1)))
          (fun k : Fin K => v9 (ix2 k q)) (fun k : Fin K => v16 (ix2 k q)) (v12 (ix2 (0 : Fin 1) q)) (Ideal.ofBits .f32 0x00000000#32) := by
  show max ((FloatOps.matmul (DotDims.plain M K N) none
        (truncf (F := Ideal) .bf16 (mulf v0 (broadcastTo ⟨2, ![M, K]⟩ v2 h1)) hb) v9
        (constant (F := Ideal) ⟨2, ![M, N]⟩ .f32 0x00000000#32) (ix2 p q)
      + broadcastTo (⟨2, ![M, N]⟩ : Shape) v12 h2 (ix2 p q))
      + FloatOps.matmul (DotDims.plain M K N) none v7 v16 (constant (F := Ideal) ⟨2, ![M, N]⟩ .f32 0x00000000#32) (ix2 p q))
      (Ideal.ofBits .f32 0x00000000#32) = _
  rw [plain_matmul_zero_apply, plain_matmul_zero_apply, broadcastTo_1b_ab_apply]
  unfold layerAt
  refine congrArg (fun s : EReal => max ((s + v12 (ix2 (0 : Fin 1) q)) + ∑ k : Fin K, v7 (ix2 p k) * v16 (ix2 k q)) (Ideal.ofBits .f32 0x00000000#32)) ?_
  refine Finset.sum_congr rfl fun k _ => ?_
  show (v0 (ix2 p k) * broadcastTo (⟨2, ![M, K]⟩ : Shape) v2 h1 (ix2 p k)) * v9 (ix2 k q) = _
  rw [broadcastTo_a1_ab_apply]

/-- The printed dimension numbers of the first body's two products are the plain ones: rows against columns. -/
theorem dims0 : dot_S4000x256_S256x256_S4000x256_1_0_0_1_n_n = DotDims.plain 4000 256 256 := rfl

/-- The first body's stored value at row `p`, column `q` of the block. -/
theorem pay0_apply (v0 : Vec Ideal S4000x256 .f32) (v2 : Vec Ideal S4000x1 .f32) (v7 : Vec Ideal S4000x256 .bf16)
    (v9 : Vec Ideal S256x256 .bf16) (v12 : Vec Ideal S1x256 .f32) (v16 : Vec Ideal S256x256 .bf16) (p : Fin 4000) (q : Fin 256) :
    k0_pay1 (F := Ideal) v0 v2 v7 v9 v12 v16 (ix2 p q)
      = layerAt (fun k : Fin 256 => v0 (ix2 p k)) (fun k : Fin 256 => v7 (ix2 p k)) (v2 (ix2 p (0 : Fin 1)))
          (fun k : Fin 256 => v9 (ix2 k q)) (fun k : Fin 256 => v16 (ix2 k q)) (v12 (ix2 (0 : Fin 1) q)) (Ideal.ofBits .f32 0x00000000#32) := by
  unfold k0_pay1
  simp only [shapeCast_self, dims0]
  exact layer_apply v0 v2 v7 v9 v16 v12 _ _ _ p q

end Cert.Sage.Kernel

end
-- ==== Proof.RefIdx.lean ====
/-
  The index functions the reference's read-at-an-index lemmas compose, evaluated at indices built from coordinates:
  a product's left operand is read at (row, k) and its right operand at (k, column); a broadcast column is read at
  (row, 0) and a broadcast row at (0, column); a vector seen as a column or a row is read at its one coordinate.
-/
import proofs.«169809_j36979668418994_2_alg».proof.Proof.RefReadP

noncomputable section

namespace Cert.Sage.Ref

open Idealize.ShloMosaic Idealize.ShloMosaic.ValueIdx Cert.ReferenceIdeal Cert.ReferenceIdeal.ReadP

theorem l28 (r : Fin 100000) (j k : Fin 256) : lidx_main_v28 (ix2 r j) k = ix2 r k := funext fun a => Fin.ext (by
    match a with
    | ⟨0, _⟩ => rfl
    | ⟨1, _⟩ => rfl)
theorem r28 (r : Fin 100000) (j k : Fin 256) : ridx_main_v28 (ix2 r j) k = ix2 k j := funext fun a => Fin.ext (by
    match a with
    | ⟨0, _⟩ => rfl
    | ⟨1, _⟩ => rfl)
theorem l32 (r : Fin 100000) (j k : Fin 256) : lidx_main_v32 (ix2 r j) k = ix2 r k := funext fun a => Fin.ext (by
    match a with
    | ⟨0, _⟩ => rfl
    | ⟨1, _⟩ => rfl)
theorem r32 (r : Fin 100000) (j k : Fin 256) : ridx_main_v32 (ix2 r j) k = ix2 k j := funext fun a => Fin.ext (by
    match a with
    | ⟨0, _⟩ => rfl
    | ⟨1, _⟩ => rfl)
theorem i26 (r : Fin 100000) (k : Fin 256) : idx_main_v26 (ix2 r k) = ix2 r (0 : Fin 1) := funext fun a => Fin.ext (by
    match a with
    | ⟨0, _⟩ => rfl
    | ⟨1, _⟩ => rfl)
theorem i25 (r : Fin 100000) : idx_main_v25 (ix2 r (0 : Fin 1)) = ix1 r := funext fun a => Fin.ext (by
    match a with
    | ⟨0, _⟩ => rfl)
theorem i30 (r : Fin 100000) (j : Fin 256) : idx_main_v30 (ix2 r j) = ix2 (0 : Fin 1) j := funext fun a => Fin.ext (by
    match a with
    | ⟨0, _⟩ => rfl
    | ⟨1, _⟩ => rfl)
theorem i29 (j : Fin 256) : idx_main_v29 (ix2 (0 : Fin 1) j) = ix1 j := funext fun a => Fin.ext (by
    match a with
    | ⟨0, _⟩ => rfl)
theorem l48 (r : Fin 100000) (j : Fin 128) (k : Fin 256) : lidx_main_v48 (ix2 r j) k = ix2 r k := funext fun a => Fin.ext (by
    match a with
    | ⟨0, _⟩ => rfl
    | ⟨1, _⟩ => rfl)
theorem r48 (r : Fin 100000) (j : Fin 128) (k : Fin 256) : ridx_main_v48 (ix2 r j) k = ix2 k j := funext fun a => Fin.ext (by
    match a with
    | ⟨0, _⟩ => rfl
    | ⟨1, _⟩ => rfl)
theorem l52 (r : Fin 100000) (j : Fin 128) (k : Fin 256) : lidx_main_v52 (ix2 r j) k = ix2 r k := funext fun a => Fin.ext (by
    match a with
    | ⟨0, _⟩ => rfl
    | ⟨1, _⟩ => rfl)
theorem r52 (r : Fin 100000) (j : Fin 128) (k : Fin 256) : ridx_main_v52 (ix2 r j) k = ix2 k j := funext fun a => Fin.ext (by
    match a with
    | ⟨0, _⟩ => rfl
    | ⟨1, _⟩ => rfl)
theorem i46 (r : Fin 100000) (k : Fin 256) : idx_main_v46 (ix2 r k) = ix2 r (0 : Fin 1) := funext fun a => Fin.ext (by
    match a with
    | ⟨0, _⟩ => rfl
    | ⟨1, _⟩ => rfl)
theorem i45 (r : Fin 100000) : idx_main_v45 (ix2 r (0 : Fin 1)) = ix1 r := funext fun a => Fin.ext (by
    match a with
    | ⟨0, _⟩ => rfl)
theorem i50 (r : Fin 100000) (j : Fin 128) : idx_main_v50 (ix2 r j) = ix2 (0 : Fin 1) j := funext fun a => Fin.ext (by
    match a with
    | ⟨0, _⟩ => rfl
    | ⟨1, _⟩ => rfl)
theorem i49 (j : Fin 128) : idx_main_v49 (ix2 (0 : Fin 1) j) = ix1 j := funext fun a => Fin.ext (by
    match a with
    | ⟨0, _⟩ => rfl)
theorem l55 (r : Fin 100000) (c : Fin 2) (k : Fin 128) : lidx_main_v55 (ix2 r c) k = ix2 r k := funext fun a => Fin.ext (by
    match a with
    | ⟨0, _⟩ => rfl
    | ⟨1, _⟩ => rfl)
theorem r55 (r : Fin 100000) (c : Fin 2) (k : Fin 128) : ridx_main_v55 (ix2 r c) k = ix2 k c := funext fun a => Fin.ext (by
    match a with
    | ⟨0, _⟩ => rfl
    | ⟨1, _⟩ => rfl)
theorem i57 (r : Fin 100000) (c : Fin 2) : idx_main_v57 (ix2 r c) = ix2 (0 : Fin 1) c := funext fun a => Fin.ext (by
    match a with
    | ⟨0, _⟩ => rfl
    | ⟨1, _⟩ => rfl)
theorem i56 (c : Fin 2) : idx_main_v56 (ix2 (0 : Fin 1) c) = ix1 c := funext fun a => Fin.ext (by
    match a with
    | ⟨0, _⟩ => rfl)

end Cert.Sage.Ref

end
-- ==== Proof.RefLayer.lean ====
/-
  The reference's three dense stages at an index, from its operations read one at a time: the first SAGE layer's
  output `h1` at (r, j) is the layer entry of row `r` of the first neighbour sum and of the features, the inverse
  degree of node `r`, column `j` of the two weight matrices and entry `j` of the bias; the second layer's output `h2`
  likewise from the second neighbour sum and `h1`; a logit is a row of `h2` against a column of the classifier's
  weights plus its bias.
-/
import proofs.«169809_j36979668418994_2_alg».proof.Proof.RefIdx
import proofs.«169809_j36979668418994_2_alg».proof.Proof.Spec

noncomputable section

namespace Cert.Sage.Ref

open Idealize.ShloMosaic Idealize.ShloMosaic.ValueIdx Cert.ReferenceIdeal Cert.ReferenceIdeal.ReadP

/-! ## The stages -/

/-- The first layer's output at node `r`, feature `j`. -/
theorem h1_apply (x0 : FVec Ideal S100000x256 .f32) (x1 : IVec S2x1000000 32) (x2 : FVec Ideal S256x256 .f32) (x3 : FVec Ideal S256x256 .f32) (x4 : FVec Ideal S256 .f32) (r : Fin 100000) (j : Fin 256) :
    val_main_v34 (F := Ideal) x0 x1 x2 x3 x4 (ix2 r j)
      = layerAt (fun k : Fin 256 => val_main_v24 (F := Ideal) x0 x1 (ix2 r k)) (fun k : Fin 256 => x0 (ix2 r k))
          (val_main_v14 (F := Ideal) x1 (ix1 r)) (fun k : Fin 256 => x2 (ix2 k j)) (fun k : Fin 256 => x3 (ix2 k j)) (x4 (ix1 j))
          (Ideal.ofBits .f32 0x00000000#32) := by
  have hs1 : ∀ k : Fin 256, val_main_v27 (F := Ideal) x0 x1 (lidx_main_v28 (ix2 r j) k) * x2 (ridx_main_v28 (ix2 r j) k)
      = (val_main_v24 (F := Ideal) x0 x1 (ix2 r k) * val_main_v14 (F := Ideal) x1 (ix1 r)) * x2 (ix2 k j) := fun k => by
    rw [l28, r28, val_main_v27_apply, val_main_v26_apply, i26, val_main_v25_apply, i25]; rfl
  have hs2 : ∀ k : Fin 256, x0 (lidx_main_v32 (ix2 r j) k) * x3 (ridx_main_v32 (ix2 r j) k) = x0 (ix2 r k) * x3 (ix2 k j) :=
    fun k => by rw [l32, r32]
  have hb : val_main_v30 (F := Ideal) x4 (ix2 r j) = x4 (ix1 j) := by rw [val_main_v30_apply, i30, val_main_v29_apply, i29]
  rw [val_main_v34_apply, val_main_v33_apply, val_main_v31_apply, val_main_v28_apply, hb, val_main_v32_apply,
    val_main_call1_v0_apply, val_main_call1_cst_apply, Finset.sum_congr rfl fun k _ => hs1 k, Finset.sum_congr rfl fun k _ => hs2 k]
  rfl

/-- The second layer's output at node `r`, feature `j`. -/
theorem h2_apply (x0 : FVec Ideal S100000x256 .f32) (x1 : IVec S2x1000000 32) (x2 : FVec Ideal S256x256 .f32) (x3 : FVec Ideal S256x256 .f32) (x4 : FVec Ideal S256 .f32) (x5 : FVec Ideal S256x128 .f32) (x6 : FVec Ideal S256x128 .f32) (x7 : FVec Ideal S128 .f32) (r : Fin 100000) (j : Fin 128) :
    val_main_v54 (F := Ideal) x0 x1 x2 x3 x4 x5 x6 x7 (ix2 r j)
      = layerAt (fun k : Fin 256 => val_main_v44 (F := Ideal) x0 x1 x2 x3 x4 (ix2 r k))
          (fun k : Fin 256 => val_main_v34 (F := Ideal) x0 x1 x2 x3 x4 (ix2 r k))
          (val_main_v14 (F := Ideal) x1 (ix1 r)) (fun k : Fin 256 => x5 (ix2 k j)) (fun k : Fin 256 => x6 (ix2 k j)) (x7 (ix1 j))
          (Ideal.ofBits .f32 0x00000000#32) := by
  have hs1 : ∀ k : Fin 256, val_main_v47 (F := Ideal) x0 x1 x2 x3 x4 (lidx_main_v48 (ix2 r j) k) * x5 (ridx_main_v48 (ix2 r j) k)
      = (val_main_v44 (F := Ideal) x0 x1 x2 x3 x4 (ix2 r k) * val_main_v14 (F := Ideal) x1 (ix1 r)) * x5 (ix2 k j) := fun k => by
    rw [l48, r48, val_main_v47_apply, val_main_v46_apply, i46, val_main_v45_apply, i45]; rfl
  have hs2 : ∀ k : Fin 256, val_main_v34 (F := Ideal) x0 x1 x2 x3 x4 (lidx_main_v52 (ix2 r j) k) * x6 (ridx_main_v52 (ix2 r j) k)
      = val_main_v34 (F := Ideal) x0 x1 x2 x3 x4 (ix2 r k) * x6 (ix2 k j) := fun k => by rw [l52, r52]
  have hb : val_main_v50 (F := Ideal) x7 (ix2 r j) = x7 (ix1 j) := by rw [val_main_v50_apply, i50, val_main_v49_apply, i49]
  rw [val_main_v54_apply, val_main_v53_apply, val_main_v51_apply, val_main_v48_apply, hb, val_main_v52_apply,
    val_main_call2_v0_apply, val_main_call2_cst_apply, Finset.sum_congr rfl fun k _ => hs1 k, Finset.sum_congr rfl fun k _ => hs2 k]
  rfl

/-- Logit `c` of node `r`. -/
theorem logit_apply (x0 : FVec Ideal S100000x256 .f32) (x1 : IVec S2x1000000 32) (x2 : FVec Ideal S256x256 .f32) (x3 : FVec Ideal S256x256 .f32) (x4 : FVec Ideal S256 .f32) (x5 : FVec Ideal S256x128 .f32) (x6 : FVec Ideal S256x128 .f32) (x7 : FVec Ideal S128 .f32) (x8 : FVec Ideal S128x2 .f32) (x9 : FVec Ideal S2 .f32) (r : Fin 100000) (c : Fin 2) :
    val_main_v58 (F := Ideal) x0 x1 x2 x3 x4 x5 x6 x7 x8 x9 (ix2 r c)
      = logitAt (fun k : Fin 128 => val_main_v54 (F := Ideal) x0 x1 x2 x3 x4 x5 x6 x7 (ix2 r k)) (fun k : Fin 128 => x8 (ix2 k c))
          (x9 (ix1 c)) := by
  have hs : ∀ k : Fin 128, val_main_v54 (F := Ideal) x0 x1 x2 x3 x4 x5 x6 x7 (lidx_main_v55 (ix2 r c) k) * x8 (ridx_main_v55 (ix2 r c) k)
      = val_main_v54 (F := Ideal) x0 x1 x2 x3 x4 x5 x6 x7 (ix2 r k) * x8 (ix2 k c) := fun k => by rw [l55, r55]
  have hb : val_main_v57 (F := Ideal) x9 (ix2 r c) = x9 (ix1 c) := by rw [val_main_v57_apply, i57, val_main_v56_apply, i56]
  rw [val_main_v58_apply, val_main_v55_apply, hb, Finset.sum_congr rfl fun k _ => hs k]
  rfl

end Cert.Sage.Ref

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibRowCast.lean ====
/- A vector laid out as a one-row matrix, read at coordinates, for any extent and any element type: a vector `[b]` cast to
   `[1, b]` reads, at `(z, c)`, the vector's entry `c` — both sit at row-major position `c`. Nothing here depends on a
   particular program; it is the companion of the `[1, b] → [b]` cast read. -/
import Idealize.ShloMosaic.Lib.Pipeline.Value
import Idealize.ShloMosaic.Lib.ValueIdx

noncomputable section

open Idealize.ShloMosaic Idealize.ShloMosaic.ValueIdx

namespace Cert.Lib.RowCast

/-- A vector `[b]` cast to a row `[1, b]` reads, at `(z, c)`, the vector at `c`. -/
theorem shapeCast_b_1b_apply {α : Type} {b : ℕ} (v : (⟨1, ![b]⟩ : Shape).Idx → α) (h : (⟨1, ![b]⟩ : Shape).ShapeCasts ⟨2, ![1, b]⟩)
    (z : Fin 1) (c : Fin b) : shapeCast ⟨2, ![1, b]⟩ v h (ix2 z c) = v (ix1 c) := by
  refine shapeCast_apply v h (ix2 z c) (ix1 c) ?_
  rw [Shape.rowMajor_val_one, Shape.rowMajor_val_two]
  show c.val = z.val * b + c.val
  have := z.isLt
  have hz : z.val = 0 := by omega
  rw [hz, Nat.zero_mul, Nat.zero_add]

end Cert.Lib.RowCast

end
-- ==== Proof.Region0Blocks.lean ====
/-
  The first pallas_call's blocks.  The grid has 25 points; point `t` stages rows 4000·t … 4000·t+3999 of the
  aggregated array, of the inverse-degree column and of the features, the whole weight matrices and the bias row, and
  writes back rows 4000·t … 4000·t+3999 of the output: where an entry of a block sits in its array, and each block
  entry as an entry of the reference's arrays once the arrays the call finds are the reference's (hypotheses).
-/
import proofs.«169809_j36979668418994_2_alg».proof.Proof.Gen.KernelIdeal.Frame
import proofs.«169809_j36979668418994_2_alg».proof.Proof.KernelBody0
import proofs.«169809_j36979668418994_2_alg».proof.Proof.RefLayer
import proofs.«169809_j36979668418994_2_alg».proof.Proof.LibColumnReads
import proofs.«169809_j36979668418994_2_alg».proof.Proof.LibRowCast
import Idealize.ShloMosaic.Lib.Pipeline.Value
import Idealize.ShloMosaic.Lib.ValueIdx

set_option maxRecDepth 16384

noncomputable section

namespace Cert.Sage.Kernel

open Idealize.ShloMosaic Idealize.ShloMosaic.TcCoe Idealize.ShloMosaic.ValueIdx Idealize.SL.Sem Cert.KernelIdeal Cert.KernelIdeal.Gen
open Idealize.ShloMosaic.Pipeline (Dat Cfg Window)

theorem hz : (![0, 0] : Fin 2 → Nat) = fun _ => 0 := funext fun a => by fin_cases a <;> rfl

/-- The printed index maps of the first call, decided over the grid: the row-blocked windows sit at block row `t`,
    the resident ones at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem N0 : cfg0.N = 25 := N_0

/-- Row `p` of block `t` as a row of the whole array. -/
def rowOf (t : Fin cfg0.N) (p : Fin 4000) : Fin 100000 :=
  ⟨t.val * 4000 + p.val, by have h1 : t.val < 25 := lt_of_lt_of_eq t.isLt N0; have h2 := p.isLt; omega⟩

variable (V : (c : Dev nD) → (b : Ref sig .tc) → Buf (Elt Ideal) ((c : Thread nD τ).loc b)) (c : Dev nD)

/-! ## Where a block's entry sits in its array -/

theorem emb0_0 (t : Fin cfg0.N) (p : Fin 4000) (k : Fin 256) : ((cfg0.win 0).blk t).view.emb (ix2 p k) = ix2 (rowOf t p) k := by
  obtain ⟨e0, e1, -⟩ := idx0 t
  funext a; apply Fin.ext
  match a with
  | ⟨0, _⟩ => show win0_0.index t (0 : Fin 2) * 4000 + 1 * p.val = t.val * 4000 + p.val; omega
  | ⟨1, _⟩ => show win0_0.index t (1 : Fin 2) * 256 + 1 * k.val = k.val; omega

theorem emb0_1 (t : Fin cfg0.N) (p : Fin 4000) : ((cfg0.win 1).blk t).view.emb (ix2 p (0 : Fin 1)) = ix2 (rowOf t p) (0 : Fin 1) := by
  obtain ⟨-, -, e0, e1, -⟩ := idx0 t
  funext a; apply Fin.ext
  match a with
  | ⟨0, _⟩ => show win0_1.index t (0 : Fin 2) * 4000 + 1 * p.val = t.val * 4000 + p.val; omega
  | ⟨1, _⟩ => show win0_1.index t (1 : Fin 2) * 1 + 1 * 0 = 0; omega

theorem emb0_2 (t : Fin cfg0.N) (p : Fin 4000) (k : Fin 256) : ((cfg0.win 2).blk t).view.emb (ix2 p k) = ix2 (rowOf t p) k := by
  obtain ⟨-, -, -, -, e0, e1, -⟩ := idx0 t
  funext a; apply Fin.ext
  match a with
  | ⟨0, _⟩ => show win0_2.index t (0 : Fin 2) * 4000 + 1 * p.val = t.val * 4000 + p.val; omega
  | ⟨1, _⟩ => show win0_2.index t (1 : Fin 2) * 256 + 1 * k.val = k.val; omega

theorem emb0_3 (t : Fin cfg0.N) (k q : Fin 256) : ((cfg0.win 3).blk t).view.emb (ix2 k q) = ix2 k q := by
  obtain ⟨-, -, -, -, -, -, e0, e1, -⟩ := idx0 t
  funext a; apply Fin.ext
  match a with
  | ⟨0, _⟩ => show win0_3.index t (0 : Fin 2) * 256 + 1 * k.val = k.val; omega
  | ⟨1, _⟩ => show win0_3.index t (1 : Fin 2) * 256 + 1 * q.val = q.val; omega

theorem emb0_4 (t : Fin cfg0.N) (k q : Fin 256) : ((cfg0.win 4).blk t).view.emb (ix2 k q) = ix2 k q := by
  obtain ⟨-, -, -, -, -, -, -, -, e0, e1, -⟩ := idx0 t
  funext a; apply Fin.ext
  match a with
  | ⟨0, _⟩ => show win0_4.index t (0 : Fin 2) * 256 + 1 * k.val = k.val; omega
  | ⟨1, _⟩ => show win0_4.index t (1 : Fin 2) * 256 + 1 * q.val = q.val; omega

theorem emb0_5 (t : Fin cfg0.N) (q : Fin 256) : ((cfg0.win 5).blk t).view.emb (ix2 (0 : Fin 1) q) = ix2 (0 : Fin 1) q := by
  obtain ⟨-, -, -, -, -, -, -, -, -, -, e0, e1, -⟩ := idx0 t
  funext a; apply Fin.ext
  match a with
  | ⟨0, _⟩ => show win0_5.index t (0 : Fin 2) * 1 + 1 * 0 = 0; omega
  | ⟨1, _⟩ => show win0_5.index t (1 : Fin 2) * 256 + 1 * q.val = q.val; omega

theorem emb0_6 (t : Fin cfg0.N) (p : Fin 4000) (q : Fin 256) : ((cfg0.win 6).blk t).view.emb (ix2 p q) = ix2 (rowOf t p) q := by
  obtain ⟨-, -, -, -, -, -, -, -, -, -, -, -, e0, e1⟩ := idx0 t
  funext a; apply Fin.ext
  match a with
  | ⟨0, _⟩ => show win0_6.index t (0 : Fin 2) * 4000 + 1 * p.val = t.val * 4000 + p.val; omega
  | ⟨1, _⟩ => show win0_6.index t (1 : Fin 2) * 256 + 1 * q.val = q.val; omega

/-- The output window is not cut at the array's end: what is written back is the whole staged block. -/
theorem cut6_apply (t : Fin cfg0.N) (X : S4000x256.Idx → EReal) (p : Fin 4000) (q : Fin 256) :
    (cfg0.win 6).cut (grid0.coords t) X (ix2 p q) = X (ix2 p q) := rfl

/-- Block `t` of an array of the output's shape, read at (p, q), is the array at row 4000·t+p, column q. -/
theorem read6_apply (t : Fin cfg0.N) (f : S100000x256.Idx → EReal) (p : Fin 4000) (q : Fin 256) :
    ((cfg0.win 6).blk t).view.read (Elt Ideal) f (ix2 p q) = f (ix2 (rowOf t p) q) := by
  show f (((cfg0.win 6).blk t).view.emb (ix2 p q)) = _
  rw [emb0_6]

/-! ## The blocks a point reads, as the reference's arrays -/

section
variable (x0 : FVec Ideal S100000x256 .f32) (x1 : IVec S2x1000000 32) (x2 x3 : FVec Ideal S256x256 .f32) (x4 : FVec Ideal S256 .f32)

theorem blk0_agg (hA : V c main_v32 = Cert.ReferenceIdeal.ReadP.val_main_v24 (F := Ideal) x0 x1) (t : Fin cfg0.N) (p : Fin 4000) (k : Fin 256) :
    iblk0 V c 0 t (ix2 p k) = Cert.ReferenceIdeal.ReadP.val_main_v24 (F := Ideal) x0 x1 (ix2 (rowOf t p) k) := by
  show V c main_v32 (((cfg0.win 0).blk t).view.emb (ix2 p k)) = _
  rw [hA, emb0_0]

theorem blk0_dinv (hD : V c main_v15 = shapeCast S100000x1 (Cert.ReferenceIdeal.ReadP.val_main_v14 (F := Ideal) x1) shapeCasts_S100000_S100000x1)
    (t : Fin cfg0.N) (p : Fin 4000) :
    iblk0 V c 1 t (ix2 p (0 : Fin 1)) = Cert.ReferenceIdeal.ReadP.val_main_v14 (F := Ideal) x1 (ix1 (rowOf t p)) := by
  show V c main_v15 (((cfg0.win 1).blk t).view.emb (ix2 p (0 : Fin 1))) = _
  rw [hD, emb0_1]
  exact Cert.Lib.ColumnReads.shapeCast_a_a1_apply _ _ _ _

theorem blk0_x (hX : V c main_v16 = x0) (t : Fin cfg0.N) (p : Fin 4000) (k : Fin 256) :
    iblk0 V c 2 t (ix2 p k) = x0 (ix2 (rowOf t p) k) := by
  show V c main_v16 (((cfg0.win 2).blk t).view.emb (ix2 p k)) = _
  rw [hX, emb0_2]

theorem blk0_wl (hWl : V c main_v17 = x2) (t : Fin cfg0.N) (k q : Fin 256) : iblk0 V c 3 t (ix2 k q) = x2 (ix2 k q) := by
  show V c main_v17 (((cfg0.win 3).blk t).view.emb (ix2 k q)) = _
  rw [hWl, emb0_3]

theorem blk0_wr (hWr : V c main_v18 = x3) (t : Fin cfg0.N) (k q : Fin 256) : iblk0 V c 4 t (ix2 k q) = x3 (ix2 k q) := by
  show V c main_v18 (((cfg0.win 4).blk t).view.emb (ix2 k q)) = _
  rw [hWr, emb0_4]

theorem blk0_b (hB : V c main_v33 = shapeCast S1x256 x4 shapeCasts_S256_S1x256) (t : Fin cfg0.N) (q : Fin 256) :
    iblk0 V c 5 t (ix2 (0 : Fin 1) q) = x4 (ix1 q) := by
  show V c main_v33 (((cfg0.win 5).blk t).view.emb (ix2 (0 : Fin 1) q)) = _
  rw [hB, emb0_5]
  exact Cert.Lib.RowCast.shapeCast_b_1b_apply _ _ _ _

end

end Cert.Sage.Kernel

end
-- ==== Proof.Region0Flush.lean ====
/-
  What a point of the first pallas_call writes back: entry (p, q) of the written block is the layer entry of the
  staged blocks' row `p`, which is the reference's first-layer output at row 4000·t+p, column `q`.
-/
import proofs.«169809_j36979668418994_2_alg».proof.Proof.Region0Blocks

set_option maxRecDepth 16384

noncomputable section

namespace Cert.Sage.Kernel

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

section
variable (x0 : FVec Ideal S100000x256 .f32) (x1 : IVec S2x1000000 32) (x2 x3 : FVec Ideal S256x256 .f32) (x4 : FVec Ideal S256 .f32)

/-- WHAT POINT `t` WRITES BACK is block `t` of the reference's first-layer output. -/
theorem flushed0 (hA : V c main_v32 = Cert.ReferenceIdeal.ReadP.val_main_v24 (F := Ideal) x0 x1)
    (hD : V c main_v15 = shapeCast S100000x1 (Cert.ReferenceIdeal.ReadP.val_main_v14 (F := Ideal) x1) shapeCasts_S100000_S100000x1)
    (hX : V c main_v16 = x0) (hWl : V c main_v17 = x2) (hWr : V c main_v18 = x3)
    (hB : V c main_v33 = shapeCast S1x256 x4 shapeCasts_S256_S1x256) (t : Fin cfg0.N) :
    (dat0 V c).flushed 6 t = ((cfg0.win 6).blk t).view.read (Elt Ideal) (Cert.ReferenceIdeal.ReadP.val_main_v34 (F := Ideal) x0 x1 x2 x3 x4) := by
  show (cfg0.win 6).cut (grid0.coords t) ((dat0 V c).after 6 t) = _
  rw [after0_6]
  unfold out0_6
  rw [View.canon_unit_zero hz]
  simp only [View.ld_unit_zero (S := S4000x256) hz, View.ld_unit_zero (S := S4000x1) hz, View.ld_unit_zero (S := S256x256) hz,
    View.ld_unit_zero (S := S1x256) hz]
  funext j
  obtain ⟨p, q, rfl⟩ : ∃ (p : Fin 4000) (q : Fin 256), j = ix2 p q := ⟨j 0, j 1, eq_ix2 j⟩
  refine (cut6_apply t _ p q).trans (Eq.trans ?_ (read6_apply t _ p q).symm)
  rw [Cert.Sage.Ref.h1_apply]
  refine (pay0_apply (iblk0 V c 0 t) (iblk0 V c 1 t) (iblk0 V c 2 t) (iblk0 V c 3 t) (iblk0 V c 5 t) (iblk0 V c 4 t) p q).trans ?_
  exact layerAt_congr (fun k => blk0_agg V c x0 x1 hA t p k) (fun k => blk0_x V c x0 hX t p k) (blk0_dinv V c x1 hD t p)
    (fun k => blk0_wl V c x2 hWl t k q) (fun k => blk0_wr V c x3 hWr t k q) (blk0_b V c x4 hB t q)

end

end Cert.Sage.Kernel

end
-- ==== Proof.Region0.lean ====
/-
  The first pallas_call's output array: its 25 written blocks tile the array (row `r` is in block `r / 4000`), each
  is the corresponding block of the reference's first-layer output, so after the call the array IS that output.
-/
import proofs.«169809_j36979668418994_2_alg».proof.Proof.Region0Flush

set_option maxRecDepth 16384

noncomputable section

namespace Cert.Sage.Kernel

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

/-- An index of the output array is in point `t`'s block iff its row is among the block's 4000 rows. -/
theorem mem_blk6 (t : Fin cfg0.N) (i : S100000x256.Idx) :
    i ∈ ((cfg0.win 6).blk t).view.set ↔ ∀ a : Fin 2, win0_6.index t a * S4000x256.size a ≤ (i a).val
      ∧ (i a).val < win0_6.index t a * S4000x256.size a + S4000x256.size a := by
  show i ∈ ((View.whole main_v34).slice (win0_6.rect t)).set ↔ _
  rw [View.set_slice_whole, Rect.mem_set_unit]
  exact Iff.rfl

/-- The 25 blocks cover the array: row `r` is in block `r / 4000`. -/
theorem cover6 (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have ht : (i 0).val / 4000 < cfg0.N := by rw [N0]; omega
  obtain ⟨-, -, -, -, -, -, -, -, -, -, -, -, e0, e1⟩ := idx0 ⟨(i 0).val / 4000, ht⟩
  refine ⟨⟨(i 0).val / 4000, ht⟩, flush0_6 _, ?_⟩
  rw [mem_blk6]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, ht⟩ (1 : Fin 2) * 256 ≤ (i 1).val
      ∧ (i 1).val < win0_6.index ⟨(i 0).val / 4000, ht⟩ (1 : Fin 2) * 256 + 256
    rw [e1]; omega

section
variable (x0 : FVec Ideal S100000x256 .f32) (x1 : IVec S2x1000000 32) (x2 x3 : FVec Ideal S256x256 .f32) (x4 : FVec Ideal S256 .f32)

/-- THE ARRAY AFTER THE FIRST CALL is the reference's first-layer output. -/
theorem final0 (hA : V c main_v32 = Cert.ReferenceIdeal.ReadP.val_main_v24 (F := Ideal) x0 x1)
    (hD : V c main_v15 = shapeCast S100000x1 (Cert.ReferenceIdeal.ReadP.val_main_v14 (F := Ideal) x1) shapeCasts_S100000_S100000x1)
    (hX : V c main_v16 = x0) (hWl : V c main_v17 = x2) (hWr : V c main_v18 = x3)
    (hB : V c main_v33 = shapeCast S1x256 x4 shapeCasts_S256_S1x256) :
    (dat0 V c).arrAt 6 cfg0.N = Cert.ReferenceIdeal.ReadP.val_main_v34 (F := Ideal) x0 x1 x2 x3 x4 :=
  (dat0 V c).arrAt_eq_of_cover 6 _ (fun t _ => flushed0 V c x0 x1 x2 x3 x4 hA hD hX hWl hWr hB t) cover6

end

end Cert.Sage.Kernel

end
-- ==== Proof.KernelHost1a.lean ====
/-
  The buffers the host operations between the two pallas_calls read, at the first call's exit: the edge list's two
  rows, the first call's output (the reference's first-layer output), the inverse-degree column (an input of the
  first call, left as found), and the weights, biases and arguments no call has touched.
-/
import proofs.«169809_j36979668418994_2_alg».proof.Proof.Gen.KernelIdeal.Frame
import proofs.«169809_j36979668418994_2_alg».proof.Proof.KernelChains
import proofs.«169809_j36979668418994_2_alg».proof.Proof.KernelHost0
import proofs.«169809_j36979668418994_2_alg».proof.Proof.Region0
import proofs.«169809_j36979668418994_2_alg».proof.Proof.LibAfter
import proofs.«169809_j36979668418994_2_alg».proof.Proof.LibTypedRefs

set_option maxRecDepth 16384

noncomputable section

namespace Cert.Sage.Kernel

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-! ## The buffers the stretch between the calls reads, at the first call's exit -/

theorem W4_v1 : W4 m ρ c (Proc.devRef .tc main_v1)
    = shapeCast S1000000 (extractStridedSlice S1x1000000 ![0, 0] (m ((c : Thread nD τ).loc main_arg1)) slices_S2x1000000_S1x1000000_0_0) shapeCasts_S1x1000000_S1000000 :=
  (W4_of_ne m ρ c main_v1 (by decide)).trans (by
    show StableHlo.after hostOps0_2 (StableHlo.after hostOps0_1 (StableHlo.after hostOps0 (W0 m ρ c))) _ = _
    rw [← StableHlo.after_append, ← StableHlo.after_append]
    simp only [hostOps0, hostOps0_1, hostOps0_2, List.cons_append, List.nil_append]
    after_results_simp
    rfl)

theorem W4_v3 : W4 m ρ c (Proc.devRef .tc main_v3)
    = shapeCast S1000000 (extractStridedSlice S1x1000000 ![1, 0] (m ((c : Thread nD τ).loc main_arg1)) slices_S2x1000000_S1x1000000_1_0) shapeCasts_S1x1000000_S1000000 :=
  (W4_of_ne m ρ c main_v3 (by decide)).trans (by
    show StableHlo.after hostOps0_2 (StableHlo.after hostOps0_1 (StableHlo.after hostOps0 (W0 m ρ c))) _ = _
    rw [← StableHlo.after_append, ← StableHlo.after_append]
    simp only [hostOps0, hostOps0_1, hostOps0_2, List.cons_append, List.nil_append]
    after_results_simp
    rfl)

/-- The first call's output array is the reference's first-layer output. -/
theorem W4_h1 : W4 m ρ c (Proc.devRef .tc main_v34) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 6).trans (final0 (V3 m ρ) c (m ((c : Thread nD τ).loc main_arg0)) (m ((c : Thread nD τ).loc main_arg1)) (m ((c : Thread nD τ).loc main_arg2)) (m ((c : Thread nD τ).loc main_arg3)) (m ((c : Thread nD τ).loc main_arg4))
    (V3_agg m ρ c) (V3_dinv m ρ c) (V3_x m ρ c) (V3_wl m ρ c) (V3_wr m ρ c) (V3_b m ρ c))

/-- The inverse-degree column is an input of the first call: it leaves it as found. -/
theorem W4_dinv : W4 m ρ c (Proc.devRef .tc main_v15)
    = shapeCast S100000x1 (Cert.ReferenceIdeal.ReadP.val_main_v14 (F := Ideal) (m ((c : Thread nD τ).loc main_arg1))) shapeCasts_S100000_S100000x1 :=
  (W4_arr m ρ c 1).trans (((dat0 (V3 m ρ) c).arrAt_in 1 rfl cfg0.N).trans ((A_eq0 (V3 m ρ) c 1).trans (V3_dinv m ρ c)))

theorem W4_v19 : W4 m ρ c (Proc.devRef .tc main_v19) = (m ((c : Thread nD τ).loc main_arg5)) :=
  (W4_of_ne m ρ c main_v19 (by decide)).trans (by
    show StableHlo.after hostOps0_2 (StableHlo.after hostOps0_1 (StableHlo.after hostOps0 (W0 m ρ c))) _ = _
    rw [← StableHlo.after_append, ← StableHlo.after_append]
    simp only [hostOps0, hostOps0_1, hostOps0_2, List.cons_append, List.nil_append]
    after_results_simp
    rfl)

theorem W4_v20 : W4 m ρ c (Proc.devRef .tc main_v20) = (m ((c : Thread nD τ).loc main_arg6)) :=
  (W4_of_ne m ρ c main_v20 (by decide)).trans (by
    show StableHlo.after hostOps0_2 (StableHlo.after hostOps0_1 (StableHlo.after hostOps0 (W0 m ρ c))) _ = _
    rw [← StableHlo.after_append, ← StableHlo.after_append]
    simp only [hostOps0, hostOps0_1, hostOps0_2, List.cons_append, List.nil_append]
    after_results_simp
    rfl)

theorem W4_v21 : W4 m ρ c (Proc.devRef .tc main_v21) = (m ((c : Thread nD τ).loc main_arg8)) :=
  (W4_of_ne m ρ c main_v21 (by decide)).trans (by
    show StableHlo.after hostOps0_2 (StableHlo.after hostOps0_1 (StableHlo.after hostOps0 (W0 m ρ c))) _ = _
    rw [← StableHlo.after_append, ← StableHlo.after_append]
    simp only [hostOps0, hostOps0_1, hostOps0_2, List.cons_append, List.nil_append]
    after_results_simp
    rfl)

theorem W4_arg7 : W4 m ρ c (Proc.devRef .tc main_arg7) = (m ((c : Thread nD τ).loc main_arg7)) :=
  (W4_of_ne m ρ c main_arg7 (by decide)).trans (by
    show StableHlo.after hostOps0_2 (StableHlo.after hostOps0_1 (StableHlo.after hostOps0 (W0 m ρ c))) _ = _
    rw [← StableHlo.after_append, ← StableHlo.after_append]
    simp only [hostOps0, hostOps0_1, hostOps0_2, List.cons_append, List.nil_append]
    after_results_simp
    try rfl)

theorem W4_arg9 : W4 m ρ c (Proc.devRef .tc main_arg9) = (m ((c : Thread nD τ).loc main_arg9)) :=
  (W4_of_ne m ρ c main_arg9 (by decide)).trans (by
    show StableHlo.after hostOps0_2 (StableHlo.after hostOps0_1 (StableHlo.after hostOps0 (W0 m ρ c))) _ = _
    rw [← StableHlo.after_append, ← StableHlo.after_append]
    simp only [hostOps0, hostOps0_1, hostOps0_2, List.cons_append, List.nil_append]
    after_results_simp
    try rfl)

end Cert.Sage.Kernel

end
-- ==== Proof.KernelHost1.lean ====
/-
  What the second pallas_call finds in its eight input arrays.  Between the calls the host gathers the first call's
  output along the edges and sums it into the destination rows — the reference's second neighbour sum, the first
  call's output being the reference's first-layer output; the inverse degrees and that output are still what the
  first call found or left; the remaining arrays are the arguments (narrowed, which is the identity on the extended
  reals) or their row forms.
-/
import proofs.«169809_j36979668418994_2_alg».proof.Proof.Gen.KernelIdeal.Frame
import proofs.«169809_j36979668418994_2_alg».proof.Proof.KernelChains
import proofs.«169809_j36979668418994_2_alg».proof.Proof.KernelHost1a
import proofs.«169809_j36979668418994_2_alg».proof.Proof.LibAfter
import proofs.«169809_j36979668418994_2_alg».proof.Proof.LibTypedRefs

set_option maxRecDepth 16384

noncomputable section

namespace Cert.Sage.Kernel

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-! ## The second call's input arrays -/

/-- Narrowing to bf16 is the identity on the extended reals. -/
theorem narrow_id (H : FVec Ideal S100000x256 .f32) : truncf .bf16 H bitsLt_bf16_f32 = H := rfl

/-- The neighbour sum of the first layer's output, as the reference computes it. -/
theorem V5_agg : W5 m ρ c (Proc.devRef .tc main_v45) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W4 m ρ c) _ = _
  simp only [hostOps1]
  after_results_simp
  rw [W4_v1, W4_v3, W4_h1]
  refine Eq.trans ?_ (aggK_eq2 (m ((c : Thread nD τ).loc main_arg0)) (m ((c : Thread nD τ).loc main_arg1)) (m ((c : Thread nD τ).loc main_arg2)) (m ((c : Thread nD τ).loc main_arg3)) (m ((c : Thread nD τ).loc main_arg4)))
  generalize Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = H
  generalize m ((c : Thread nD τ).loc main_arg1) = E
  unfold aggK dstK srcK
  rw [narrow_id H]

theorem V5_dinv : W5 m ρ c (Proc.devRef .tc main_v15)
    = shapeCast S100000x1 (Cert.ReferenceIdeal.ReadP.val_main_v14 (F := Ideal) (m ((c : Thread nD τ).loc main_arg1))) shapeCasts_S100000_S100000x1 := by
  show StableHlo.after hostOps1 (W4 m ρ c) _ = _
  simp only [hostOps1]
  after_results_simp
  exact W4_dinv m ρ c

theorem V5_h1 : W5 m ρ c (Proc.devRef .tc main_v34) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W4 m ρ c) _ = _
  simp only [hostOps1]
  after_results_simp
  exact W4_h1 m ρ c

theorem V5_wl : W5 m ρ c (Proc.devRef .tc main_v19) = (m ((c : Thread nD τ).loc main_arg5)) := by
  show StableHlo.after hostOps1 (W4 m ρ c) _ = _
  simp only [hostOps1]
  after_results_simp
  exact W4_v19 m ρ c

theorem V5_wr : W5 m ρ c (Proc.devRef .tc main_v20) = (m ((c : Thread nD τ).loc main_arg6)) := by
  show StableHlo.after hostOps1 (W4 m ρ c) _ = _
  simp only [hostOps1]
  after_results_simp
  exact W4_v20 m ρ c

theorem V5_b : W5 m ρ c (Proc.devRef .tc main_v46) = shapeCast S1x128 (m ((c : Thread nD τ).loc main_arg7)) shapeCasts_S128_S1x128 := by
  show StableHlo.after hostOps1 (W4 m ρ c) _ = _
  simp only [hostOps1]
  after_results_simp
  rw [W4_arg7]
  rfl

theorem V5_wc : W5 m ρ c (Proc.devRef .tc main_v21) = (m ((c : Thread nD τ).loc main_arg8)) := by
  show StableHlo.after hostOps1 (W4 m ρ c) _ = _
  simp only [hostOps1]
  after_results_simp
  exact W4_v21 m ρ c

theorem V5_bc : W5 m ρ c (Proc.devRef .tc main_v47) = shapeCast S1x2 (m ((c : Thread nD τ).loc main_arg9)) shapeCasts_S2_S1x2 := by
  show StableHlo.after hostOps1 (W4 m ρ c) _ = _
  simp only [hostOps1]
  after_results_simp
  rw [W4_arg9]
  rfl

end Cert.Sage.Kernel

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.KernelBody1.lean ====
/-
  The second kernel's body at one entry of its output block.  Row `p` of the block has two logits: the second SAGE
  layer's row `p` (128 entries, each a layer entry of the block's rows) against the two columns of the classifier's
  weights, plus the bias row.  The body takes the row maximum `m` from minus infinity, the sum `s` of the two
  exponentials of the logits less `m`, and stores the logit less `m + log s`: the scalar `lsm` of the two logits at
  the entry's logit.
-/
import proofs.«169809_j36979668418994_2_alg».proof.Proof.KernelBody0
import proofs.«169809_j36979668418994_2_alg».proof.Proof.LibMaxFold
import proofs.«169809_j36979668418994_2_alg».proof.Proof.LibColumnReads

noncomputable section

namespace Cert.Sage.Kernel

open Idealize.ShloMosaic Idealize.ShloMosaic.ValueIdx Cert.KernelIdeal Cert.KernelIdeal.Gen Cert.Lib.PlainMatmul Cert.Lib.BroadcastReads
  Cert.Lib.MaxFold Cert.Lib.ColumnReads

/-- The maximum of two extended reals taken from the bottom is their maximum. -/
theorem fold_max_two (f : Fin 2 → EReal) : (Finset.univ : Finset (Fin 2)).fold max ⊥ f = max (f 0) (f 1) := by
  apply le_antisymm
  · rw [fold_max_univ_le]
    intro k
    fin_cases k
    · exact le_max_left _ _
    · exact le_max_right _ _
  · exact max_le ((Finset.le_fold_max _).mpr (Or.inr ⟨0, Finset.mem_univ _, le_rfl⟩))
      ((Finset.le_fold_max _).mpr (Or.inr ⟨1, Finset.mem_univ _, le_rfl⟩))

/-- The printed dimension numbers of the second body's three products are the plain ones. -/
theorem dims1 : dot_S4000x256_S256x128_S4000x128_1_0_0_1_n_n = DotDims.plain 4000 256 128 := rfl
theorem dims2 : dot_S4000x128_S128x2_S4000x2_1_0_0_1_n_n = DotDims.plain 4000 128 2 := rfl

/-- Logit `c` of row `p` of a block, from the body's eight loaded blocks. -/
def logitBlk (v0 : Vec Ideal S4000x256 .f32) (v2 : Vec Ideal S4000x1 .f32) (v7 : Vec Ideal S4000x256 .bf16)
    (v9 : Vec Ideal S256x128 .bf16) (v12 : Vec Ideal S1x128 .f32) (v16 : Vec Ideal S256x128 .bf16) (v23 : Vec Ideal S128x2 .bf16)
    (v26 : Vec Ideal S1x2 .f32) (p : Fin 4000) (c : Fin 2) : EReal :=
  logitAt (fun k : Fin 128 => layerAt (fun j : Fin 256 => v0 (ix2 p j)) (fun j : Fin 256 => v7 (ix2 p j)) (v2 (ix2 p (0 : Fin 1)))
      (fun j : Fin 256 => v9 (ix2 j k)) (fun j : Fin 256 => v16 (ix2 j k)) (v12 (ix2 (0 : Fin 1) k)) (Ideal.ofBits .f32 0x00000000#32))
    (fun k : Fin 128 => v23 (ix2 k c)) (v26 (ix2 (0 : Fin 1) c))

variable (v0 : Vec Ideal S4000x256 .f32) (v2 : Vec Ideal S4000x1 .f32) (v7 : Vec Ideal S4000x256 .bf16)
    (v9 : Vec Ideal S256x128 .bf16) (v12 : Vec Ideal S1x128 .f32) (v16 : Vec Ideal S256x128 .bf16) (v23 : Vec Ideal S128x2 .bf16)
    (v26 : Vec Ideal S1x2 .f32)

/-- The logits the body computes, at row `p`, class `c`. -/
theorem pay2_apply (p : Fin 4000) (c : Fin 2) :
    k1_pay2 (F := Ideal) v0 v2 v7 v9 v12 v16 v23 v26 (ix2 p c) = logitBlk v0 v2 v7 v9 v12 v16 v23 v26 p c := by
  unfold k1_pay2
  simp only [shapeCast_self, dims1, dims2]
  show FloatOps.matmul (DotDims.plain 4000 128 2) none _ v23 (constant (F := Ideal) ⟨2, ![4000, 2]⟩ .f32 0x00000000#32) (ix2 p c)
      + broadcastTo (⟨2, ![4000, 2]⟩ : Shape) v26 broadcasts_S1x2_S4000x2 (ix2 p c) = _
  rw [plain_matmul_zero_apply, broadcastTo_1b_ab_apply]
  unfold logitBlk logitAt
  refine congrArg (fun s : EReal => s + v26 (ix2 (0 : Fin 1) c)) (Finset.sum_congr rfl fun k _ => ?_)
  refine congrArg (fun s : EReal => s * v23 (ix2 k c)) ?_
  exact layer_apply v0 v2 v7 v9 v16 v12 _ _ _ p k

/-- The row maximum the body computes, at row `p`. -/
theorem pay3_apply (p : Fin 4000) :
    k1_pay3 (F := Ideal) v0 v2 v7 v9 v12 v16 v23 v26 (ix2 p (0 : Fin 1))
      = max (logitBlk v0 v2 v7 v9 v12 v16 v23 v26 p 0) (logitBlk v0 v2 v7 v9 v12 v16 v23 v26 p 1) := by
  unfold k1_pay3
  show shapeCast (⟨2, ![4000, 1]⟩ : Shape) (multiReduction .maximumf [1] S4000 (k1_pay2 (F := Ideal) v0 v2 v7 v9 v12 v16 v23 v26) 0xFF800000#32
      reduces_S4000x2_S4000 (.inl rfl) rfl) shapeCasts_S4000_S4000x1 (ix2 p (0 : Fin 1)) = _
  rw [shapeCast_a_a1_apply]
  refine (maxRed_apply _ reduces_S4000x2_S4000 (.inl rfl) rfl (ix1 p)).trans ((fold_max_two _).trans ?_)
  have e : ∀ k : Fin 2, reduces_S4000x2_S4000.lift (ix1 p) k = ix2 p k := fun k => funext fun a => Fin.ext (by
    match a with
    | ⟨0, _⟩ => rfl
    | ⟨1, _⟩ => rfl)
  show max (k1_pay2 (F := Ideal) v0 v2 v7 v9 v12 v16 v23 v26 (reduces_S4000x2_S4000.lift (ix1 p) (0 : Fin 2)))
      (k1_pay2 (F := Ideal) v0 v2 v7 v9 v12 v16 v23 v26 (reduces_S4000x2_S4000.lift (ix1 p) (1 : Fin 2))) = _
  rw [e 0, e 1, pay2_apply, pay2_apply]

/-- The sum of the shifted exponentials the body computes, at row `p`. -/
theorem pay4_apply (p : Fin 4000) :
    k1_pay4 (F := Ideal) v0 v2 v7 v9 v12 v16 v23 v26 (ix2 p (0 : Fin 1))
      = Ideal.exp (logitBlk v0 v2 v7 v9 v12 v16 v23 v26 p 0
            - max (logitBlk v0 v2 v7 v9 v12 v16 v23 v26 p 0) (logitBlk v0 v2 v7 v9 v12 v16 v23 v26 p 1))
        + Ideal.exp (logitBlk v0 v2 v7 v9 v12 v16 v23 v26 p 1
            - max (logitBlk v0 v2 v7 v9 v12 v16 v23 v26 p 0) (logitBlk v0 v2 v7 v9 v12 v16 v23 v26 p 1)) := by
  unfold k1_pay4
  show shapeCast (⟨2, ![4000, 1]⟩ : Shape) (multiReduction .add [1] S4000
      (exp (subf (k1_pay2 (F := Ideal) v0 v2 v7 v9 v12 v16 v23 v26)
        (broadcastTo S4000x2 (k1_pay3 (F := Ideal) v0 v2 v7 v9 v12 v16 v23 v26) broadcasts_S4000x1_S4000x2)))
      0x00000000#32 reduces_S4000x2_S4000 (.inl rfl) rfl) shapeCasts_S4000_S4000x1 (ix2 p (0 : Fin 1)) = _
  rw [shapeCast_a_a1_apply]
  refine (rowSum_apply _ 0x00000000#32 reduces_S4000x2_S4000 (.inl rfl) rfl p).trans ?_
  rw [Fin.sum_univ_two]
  show Ideal.exp (k1_pay2 (F := Ideal) v0 v2 v7 v9 v12 v16 v23 v26 (ix2 p 0)
        - broadcastTo (⟨2, ![4000, 2]⟩ : Shape) (k1_pay3 (F := Ideal) v0 v2 v7 v9 v12 v16 v23 v26) broadcasts_S4000x1_S4000x2 (ix2 p 0))
      + Ideal.exp (k1_pay2 (F := Ideal) v0 v2 v7 v9 v12 v16 v23 v26 (ix2 p 1)
        - broadcastTo (⟨2, ![4000, 2]⟩ : Shape) (k1_pay3 (F := Ideal) v0 v2 v7 v9 v12 v16 v23 v26) broadcasts_S4000x1_S4000x2 (ix2 p 1)) = _
  rw [broadcastTo_a1_ab_apply, broadcastTo_a1_ab_apply, pay2_apply, pay2_apply, pay3_apply]

/-- WHAT THE SECOND BODY STORES at row `p`, class `c`: the log-softmax of the row's two logits at its logit `c`. -/
theorem body1_apply (p : Fin 4000) (c : Fin 2) :
    k1_pay1 (k1_pay2 (F := Ideal) v0 v2 v7 v9 v12 v16 v23 v26) (k1_pay3 (F := Ideal) v0 v2 v7 v9 v12 v16 v23 v26)
        (k1_pay4 (F := Ideal) v0 v2 v7 v9 v12 v16 v23 v26) (ix2 p c)
      = lsm (logitBlk v0 v2 v7 v9 v12 v16 v23 v26 p 0) (logitBlk v0 v2 v7 v9 v12 v16 v23 v26 p 1)
          (logitBlk v0 v2 v7 v9 v12 v16 v23 v26 p c) := by
  unfold k1_pay1
  show k1_pay2 (F := Ideal) v0 v2 v7 v9 v12 v16 v23 v26 (ix2 p c)
      - broadcastTo (⟨2, ![4000, 2]⟩ : Shape) (addf (k1_pay3 (F := Ideal) v0 v2 v7 v9 v12 v16 v23 v26)
          (log (k1_pay4 (F := Ideal) v0 v2 v7 v9 v12 v16 v23 v26))) broadcasts_S4000x1_S4000x2 (ix2 p c) = _
  rw [broadcastTo_a1_ab_apply]
  show k1_pay2 (F := Ideal) v0 v2 v7 v9 v12 v16 v23 v26 (ix2 p c)
      - (k1_pay3 (F := Ideal) v0 v2 v7 v9 v12 v16 v23 v26 (ix2 p (0 : Fin 1))
        + Ideal.log (k1_pay4 (F := Ideal) v0 v2 v7 v9 v12 v16 v23 v26 (ix2 p (0 : Fin 1)))) = _
  rw [pay2_apply, pay3_apply, pay4_apply]
  rfl

end Cert.Sage.Kernel

end
-- ==== Proof.Region1Blocks.lean ====
/-
  The second pallas_call's blocks.  The grid has 25 points; point `t` stages rows 4000·t … 4000·t+3999 of the
  second neighbour sum, of the inverse-degree column and of the first layer's output, the whole weight matrices of the
  second layer and of the classifier and their bias rows, and writes back rows 4000·t … 4000·t+3999 of the output.
  Here: where an entry of each block sits in its array (the printed index maps decided over the grid), each of the
  eight loaded blocks read at an entry once the eight arrays the call finds are the reference's (hypotheses,
  discharged where the host operations before the call are read), and from these a block row's two logits as the
  reference's logits of node 4000·t+p.
-/
import proofs.«169809_j36979668418994_2_alg».proof.Proof.Gen.KernelIdeal.Frame
import proofs.«169809_j36979668418994_2_alg».proof.Proof.KernelBody1
import proofs.«169809_j36979668418994_2_alg».proof.Proof.RefLayer
import proofs.«169809_j36979668418994_2_alg».proof.Proof.LibColumnReads
import proofs.«169809_j36979668418994_2_alg».proof.Proof.LibRowCast
import Idealize.ShloMosaic.Lib.Pipeline.Value
import Idealize.ShloMosaic.Lib.ValueIdx

set_option maxRecDepth 16384

noncomputable section

namespace Cert.Sage.Kernel

open Idealize.ShloMosaic Idealize.ShloMosaic.TcCoe Idealize.ShloMosaic.ValueIdx Idealize.SL.Sem Cert.KernelIdeal Cert.KernelIdeal.Gen
open Idealize.ShloMosaic.Pipeline (Dat Cfg Window)

theorem hz1 : (![0, 0] : Fin 2 → Nat) = fun _ => 0 := funext fun a => by fin_cases a <;> rfl

/-- The printed index maps of the second call, decided over the grid: the row-blocked windows sit at block row `t`,
    the resident ones at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem N1 : cfg1.N = 25 := N_1

/-- Row `p` of block `t` as a row of the whole array. -/
def rowOf1 (t : Fin cfg1.N) (p : Fin 4000) : Fin 100000 :=
  ⟨t.val * 4000 + p.val, by have h1 : t.val < 25 := lt_of_lt_of_eq t.isLt N1; have h2 := p.isLt; omega⟩

variable (V : (c : Dev nD) → (b : Ref sig .tc) → Buf (Elt Ideal) ((c : Thread nD τ).loc b)) (c : Dev nD)

/-! ## Where a block's entry sits in its array -/

theorem emb1_0 (t : Fin cfg1.N) (p : Fin 4000) (k : Fin 256) : ((cfg1.win 0).blk t).view.emb (ix2 p k) = ix2 (rowOf1 t p) k := by
  obtain ⟨e0, e1, -⟩ := idx1 t
  funext a; apply Fin.ext
  match a with
  | ⟨0, _⟩ => show win1_0.index t (0 : Fin 2) * 4000 + 1 * p.val = t.val * 4000 + p.val; omega
  | ⟨1, _⟩ => show win1_0.index t (1 : Fin 2) * 256 + 1 * k.val = k.val; omega

theorem emb1_1 (t : Fin cfg1.N) (p : Fin 4000) (k : Fin 1) : ((cfg1.win 1).blk t).view.emb (ix2 p k) = ix2 (rowOf1 t p) k := by
  obtain ⟨-, -, e0, e1, -⟩ := idx1 t
  funext a; apply Fin.ext
  match a with
  | ⟨0, _⟩ => show win1_1.index t (0 : Fin 2) * 4000 + 1 * p.val = t.val * 4000 + p.val; omega
  | ⟨1, _⟩ => show win1_1.index t (1 : Fin 2) * 1 + 1 * k.val = k.val; omega

theorem emb1_2 (t : Fin cfg1.N) (p : Fin 4000) (k : Fin 256) : ((cfg1.win 2).blk t).view.emb (ix2 p k) = ix2 (rowOf1 t p) k := by
  obtain ⟨-, -, -, -, e0, e1, -⟩ := idx1 t
  funext a; apply Fin.ext
  match a with
  | ⟨0, _⟩ => show win1_2.index t (0 : Fin 2) * 4000 + 1 * p.val = t.val * 4000 + p.val; omega
  | ⟨1, _⟩ => show win1_2.index t (1 : Fin 2) * 256 + 1 * k.val = k.val; omega

theorem emb1_3 (t : Fin cfg1.N) (k : Fin 256) (q : Fin 128) : ((cfg1.win 3).blk t).view.emb (ix2 k q) = ix2 k q := by
  obtain ⟨-, -, -, -, -, -, e0, e1, -⟩ := idx1 t
  funext a; apply Fin.ext
  match a with
  | ⟨0, _⟩ => show win1_3.index t (0 : Fin 2) * 256 + 1 * k.val = k.val; omega
  | ⟨1, _⟩ => show win1_3.index t (1 : Fin 2) * 128 + 1 * q.val = q.val; omega

theorem emb1_4 (t : Fin cfg1.N) (k : Fin 256) (q : Fin 128) : ((cfg1.win 4).blk t).view.emb (ix2 k q) = ix2 k q := by
  obtain ⟨-, -, -, -, -, -, -, -, e0, e1, -⟩ := idx1 t
  funext a; apply Fin.ext
  match a with
  | ⟨0, _⟩ => show win1_4.index t (0 : Fin 2) * 256 + 1 * k.val = k.val; omega
  | ⟨1, _⟩ => show win1_4.index t (1 : Fin 2) * 128 + 1 * q.val = q.val; omega

theorem emb1_5 (t : Fin cfg1.N) (k : Fin 1) (q : Fin 128) : ((cfg1.win 5).blk t).view.emb (ix2 k q) = ix2 k q := by
  obtain ⟨-, -, -, -, -, -, -, -, -, -, e0, e1, -⟩ := idx1 t
  funext a; apply Fin.ext
  match a with
  | ⟨0, _⟩ => show win1_5.index t (0 : Fin 2) * 1 + 1 * k.val = k.val; omega
  | ⟨1, _⟩ => show win1_5.index t (1 : Fin 2) * 128 + 1 * q.val = q.val; omega

theorem emb1_6 (t : Fin cfg1.N) (k : Fin 128) (q : Fin 2) : ((cfg1.win 6).blk t).view.emb (ix2 k q) = ix2 k q := by
  obtain ⟨-, -, -, -, -, -, -, -, -, -, -, -, e0, e1, -⟩ := idx1 t
  funext a; apply Fin.ext
  match a with
  | ⟨0, _⟩ => show win1_6.index t (0 : Fin 2) * 128 + 1 * k.val = k.val; omega
  | ⟨1, _⟩ => show win1_6.index t (1 : Fin 2) * 2 + 1 * q.val = q.val; omega

theorem emb1_7 (t : Fin cfg1.N) (k : Fin 1) (q : Fin 2) : ((cfg1.win 7).blk t).view.emb (ix2 k q) = ix2 k q := by
  obtain ⟨-, -, -, -, -, -, -, -, -, -, -, -, -, -, e0, e1, -⟩ := idx1 t
  funext a; apply Fin.ext
  match a with
  | ⟨0, _⟩ => show win1_7.index t (0 : Fin 2) * 1 + 1 * k.val = k.val; omega
  | ⟨1, _⟩ => show win1_7.index t (1 : Fin 2) * 2 + 1 * q.val = q.val; omega

theorem emb1_8 (t : Fin cfg1.N) (p : Fin 4000) (k : Fin 2) : ((cfg1.win 8).blk t).view.emb (ix2 p k) = ix2 (rowOf1 t p) k := by
  obtain ⟨-, -, -, -, -, -, -, -, -, -, -, -, -, -, -, -, e0, e1⟩ := idx1 t
  funext a; apply Fin.ext
  match a with
  | ⟨0, _⟩ => show win1_8.index t (0 : Fin 2) * 4000 + 1 * p.val = t.val * 4000 + p.val; omega
  | ⟨1, _⟩ => show win1_8.index t (1 : Fin 2) * 2 + 1 * k.val = k.val; omega

/-! ## The output window's write-back and block, read at an entry -/

/-- The output window is not cut: what is written back at an entry of the block is the buffer's entry. -/
theorem cut1_8_apply (t : Fin cfg1.N) (X : S4000x2.Idx → EReal) (p : Fin 4000) (q : Fin 2) :
    (cfg1.win 8).cut (grid1.coords t) X (ix2 p q) = X (ix2 p q) := rfl

/-- Block `t` of an array the shape of the output, read at (p, q), is the array at row 4000·t+p, column `q`. -/
theorem read1_8_apply (t : Fin cfg1.N) (f : S100000x2.Idx → EReal) (p : Fin 4000) (q : Fin 2) :
    ((cfg1.win 8).blk t).view.read (Elt Ideal) f (ix2 p q) = f (ix2 (rowOf1 t p) q) := by
  show f (((cfg1.win 8).blk t).view.emb (ix2 p q)) = _
  rw [emb1_8]

/-! ## The eight blocks the body loads, read at an entry -/

section

variable (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal))
    (x8 : (⟨S128x2, .f32⟩ : BufTy).Contents (Elt Ideal)) (x9 : (⟨S2, .f32⟩ : BufTy).Contents (Elt Ideal))

/-- Row `p` of the block of the second neighbour sum is row 4000·t+p of the reference's. -/
theorem blk1_0 (hA : V c main_v45 = Cert.ReferenceIdeal.ReadP.val_main_v44 (F := Ideal) x0 x1 x2 x3 x4)
    (t : Fin cfg1.N) (p : Fin 4000) (k : Fin 256) :
    iblk1 V c 0 t (ix2 p k) = Cert.ReferenceIdeal.ReadP.val_main_v44 (F := Ideal) x0 x1 x2 x3 x4 (ix2 (rowOf1 t p) k) := by
  show V c main_v45 (((cfg1.win 0).blk t).view.emb (ix2 p k)) = _
  exact (congrFun hA _).trans (congrArg (Cert.ReferenceIdeal.ReadP.val_main_v44 (F := Ideal) x0 x1 x2 x3 x4) (emb1_0 t p k))

/-- Row `p` of the block of the inverse-degree column is the reference's inverse degree of node 4000·t+p. -/
theorem blk1_1 (hD : V c main_v15 = shapeCast S100000x1 (Cert.ReferenceIdeal.ReadP.val_main_v14 (F := Ideal) x1) shapeCasts_S100000_S100000x1)
    (t : Fin cfg1.N) (p : Fin 4000) :
    iblk1 V c 1 t (ix2 p (0 : Fin 1)) = Cert.ReferenceIdeal.ReadP.val_main_v14 (F := Ideal) x1 (ix1 (rowOf1 t p)) := by
  show V c main_v15 (((cfg1.win 1).blk t).view.emb (ix2 p (0 : Fin 1))) = _
  refine (congrFun hD _).trans ((congrArg (shapeCast S100000x1 (Cert.ReferenceIdeal.ReadP.val_main_v14 (F := Ideal) x1) shapeCasts_S100000_S100000x1) (emb1_1 t p 0)).trans ?_)
  exact Cert.Lib.ColumnReads.shapeCast_a_a1_apply _ _ (rowOf1 t p) (0 : Fin 1)

/-- Row `p` of the block of the first layer's output is row 4000·t+p of the reference's. -/
theorem blk1_2 (hH : V c main_v34 = Cert.ReferenceIdeal.ReadP.val_main_v34 (F := Ideal) x0 x1 x2 x3 x4)
    (t : Fin cfg1.N) (p : Fin 4000) (k : Fin 256) :
    iblk1 V c 2 t (ix2 p k) = Cert.ReferenceIdeal.ReadP.val_main_v34 (F := Ideal) x0 x1 x2 x3 x4 (ix2 (rowOf1 t p) k) := by
  show V c main_v34 (((cfg1.win 2).blk t).view.emb (ix2 p k)) = _
  exact (congrFun hH _).trans (congrArg (Cert.ReferenceIdeal.ReadP.val_main_v34 (F := Ideal) x0 x1 x2 x3 x4) (emb1_2 t p k))

/-- The resident block of the neighbour weights is the whole matrix. -/
theorem blk1_3 (hWl : V c main_v19 = x5) (t : Fin cfg1.N) (k : Fin 256) (q : Fin 128) : iblk1 V c 3 t (ix2 k q) = x5 (ix2 k q) := by
  show V c main_v19 (((cfg1.win 3).blk t).view.emb (ix2 k q)) = _
  exact (congrFun hWl _).trans (congrArg x5 (emb1_3 t k q))

/-- The resident block of the root weights is the whole matrix. -/
theorem blk1_4 (hWr : V c main_v20 = x6) (t : Fin cfg1.N) (k : Fin 256) (q : Fin 128) : iblk1 V c 4 t (ix2 k q) = x6 (ix2 k q) := by
  show V c main_v20 (((cfg1.win 4).blk t).view.emb (ix2 k q)) = _
  exact (congrFun hWr _).trans (congrArg x6 (emb1_4 t k q))

/-- The resident bias row reads the bias vector. -/
theorem blk1_5 (hB : V c main_v46 = shapeCast S1x128 x7 shapeCasts_S128_S1x128) (t : Fin cfg1.N) (q : Fin 128) :
    iblk1 V c 5 t (ix2 (0 : Fin 1) q) = x7 (ix1 q) := by
  show V c main_v46 (((cfg1.win 5).blk t).view.emb (ix2 (0 : Fin 1) q)) = _
  refine (congrFun hB _).trans ((congrArg (shapeCast S1x128 x7 shapeCasts_S128_S1x128) (emb1_5 t 0 q)).trans ?_)
  exact Cert.Lib.RowCast.shapeCast_b_1b_apply _ _ (0 : Fin 1) q

/-- The resident block of the classifier weights is the whole matrix. -/
theorem blk1_6 (hWc : V c main_v21 = x8) (t : Fin cfg1.N) (k : Fin 128) (q : Fin 2) : iblk1 V c 6 t (ix2 k q) = x8 (ix2 k q) := by
  show V c main_v21 (((cfg1.win 6).blk t).view.emb (ix2 k q)) = _
  exact (congrFun hWc _).trans (congrArg x8 (emb1_6 t k q))

/-- The resident classifier bias row reads the bias vector. -/
theorem blk1_7 (hBc : V c main_v47 = shapeCast S1x2 x9 shapeCasts_S2_S1x2) (t : Fin cfg1.N) (q : Fin 2) :
    iblk1 V c 7 t (ix2 (0 : Fin 1) q) = x9 (ix1 q) := by
  show V c main_v47 (((cfg1.win 7).blk t).view.emb (ix2 (0 : Fin 1) q)) = _
  refine (congrFun hBc _).trans ((congrArg (shapeCast S1x2 x9 shapeCasts_S2_S1x2) (emb1_7 t 0 q)).trans ?_)
  exact Cert.Lib.RowCast.shapeCast_b_1b_apply _ _ (0 : Fin 1) q

/-! ## A block row's logits are the reference's -/

/-- Logit `q` of row `p` of point `t`'s blocks is the reference's logit `q` of node 4000·t+p. -/
theorem blk_logit
    (hA : V c main_v45 = Cert.ReferenceIdeal.ReadP.val_main_v44 (F := Ideal) x0 x1 x2 x3 x4)
    (hD : V c main_v15 = shapeCast S100000x1 (Cert.ReferenceIdeal.ReadP.val_main_v14 (F := Ideal) x1) shapeCasts_S100000_S100000x1)
    (hH : V c main_v34 = Cert.ReferenceIdeal.ReadP.val_main_v34 (F := Ideal) x0 x1 x2 x3 x4)
    (hWl : V c main_v19 = x5)
    (hWr : V c main_v20 = x6)
    (hB : V c main_v46 = shapeCast S1x128 x7 shapeCasts_S128_S1x128)
    (hWc : V c main_v21 = x8)
    (hBc : V c main_v47 = shapeCast S1x2 x9 shapeCasts_S2_S1x2)
    (t : Fin cfg1.N) (p : Fin 4000) (q : Fin 2) :
    logitBlk (iblk1 V c 0 t) (iblk1 V c 1 t) (iblk1 V c 2 t) (iblk1 V c 3 t) (iblk1 V c 5 t) (iblk1 V c 4 t) (iblk1 V c 6 t) (iblk1 V c 7 t) p q = Cert.ReferenceIdeal.ReadP.val_main_v58 (F := Ideal) x0 x1 x2 x3 x4 x5 x6 x7 x8 x9 (ix2 (rowOf1 t p) q) := by
  rw [Cert.Sage.Ref.logit_apply]
  unfold logitBlk
  have e1 : (fun k : Fin 128 => iblk1 V c 6 t (ix2 k q)) = fun k : Fin 128 => x8 (ix2 k q) :=
    funext fun k => blk1_6 V c x8 hWc t k q
  have e2 : iblk1 V c 7 t (ix2 (0 : Fin 1) q) = x9 (ix1 q) := blk1_7 V c x9 hBc t q
  have e3 : (fun k : Fin 128 => layerAt (fun j : Fin 256 => iblk1 V c 0 t (ix2 p j)) (fun j : Fin 256 => iblk1 V c 2 t (ix2 p j))
        (iblk1 V c 1 t (ix2 p (0 : Fin 1))) (fun j : Fin 256 => iblk1 V c 3 t (ix2 j k)) (fun j : Fin 256 => iblk1 V c 4 t (ix2 j k))
        (iblk1 V c 5 t (ix2 (0 : Fin 1) k)) (Ideal.ofBits .f32 0x00000000#32))
      = fun k : Fin 128 => Cert.ReferenceIdeal.ReadP.val_main_v54 (F := Ideal) x0 x1 x2 x3 x4 x5 x6 x7 (ix2 (rowOf1 t p) k) := funext fun k => by
    rw [Cert.Sage.Ref.h2_apply]
    have a0 : (fun j : Fin 256 => iblk1 V c 0 t (ix2 p j)) = fun j : Fin 256 => Cert.ReferenceIdeal.ReadP.val_main_v44 (F := Ideal) x0 x1 x2 x3 x4 (ix2 (rowOf1 t p) j) :=
      funext fun j => blk1_0 V c x0 x1 x2 x3 x4 hA t p j
    have a2 : (fun j : Fin 256 => iblk1 V c 2 t (ix2 p j)) = fun j : Fin 256 => Cert.ReferenceIdeal.ReadP.val_main_v34 (F := Ideal) x0 x1 x2 x3 x4 (ix2 (rowOf1 t p) j) :=
      funext fun j => blk1_2 V c x0 x1 x2 x3 x4 hH t p j
    have a3 : (fun j : Fin 256 => iblk1 V c 3 t (ix2 j k)) = fun j : Fin 256 => x5 (ix2 j k) :=
      funext fun j => blk1_3 V c x5 hWl t j k
    have a4 : (fun j : Fin 256 => iblk1 V c 4 t (ix2 j k)) = fun j : Fin 256 => x6 (ix2 j k) :=
      funext fun j => blk1_4 V c x6 hWr t j k
    rw [a0, a2, a3, a4, blk1_1 V c x1 hD t p, blk1_5 V c x7 hB t k]
  rw [e1, e2, e3]

end

end Cert.Sage.Kernel

end
-- ==== Proof.Region1Flush.lean ====
/-
  What a point of the second pallas_call writes back.  Entry (p, q) of the block point `t` writes is the scalar
  log-softmax of the two logits of the loaded blocks' row `p`; those are the reference's logits of node 4000·t+p, so
  the block is block `t` of the array whose entry (r, q) is the scalar log-softmax of node `r`'s two reference logits.
-/
import proofs.«169809_j36979668418994_2_alg».proof.Proof.Region1Blocks

set_option maxRecDepth 16384

noncomputable section

namespace Cert.Sage.Kernel

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

section

variable (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal))
    (x8 : (⟨S128x2, .f32⟩ : BufTy).Contents (Elt Ideal)) (x9 : (⟨S2, .f32⟩ : BufTy).Contents (Elt Ideal))

/-- The array the call leaves: at node `r`, class `q`, the scalar log-softmax of node `r`'s two reference logits,
    read at logit `q`. -/
def out1G : S100000x2.Idx → EReal := fun i =>
  lsm (Cert.ReferenceIdeal.ReadP.val_main_v58 (F := Ideal) x0 x1 x2 x3 x4 x5 x6 x7 x8 x9 (ix2 ⟨(i 0).val, (i 0).isLt⟩ 0))
    (Cert.ReferenceIdeal.ReadP.val_main_v58 (F := Ideal) x0 x1 x2 x3 x4 x5 x6 x7 x8 x9 (ix2 ⟨(i 0).val, (i 0).isLt⟩ 1))
    (Cert.ReferenceIdeal.ReadP.val_main_v58 (F := Ideal) x0 x1 x2 x3 x4 x5 x6 x7 x8 x9 i)

/-- That array at node `r`, class `q`. -/
theorem out1G_apply (r : Fin 100000) (q : Fin 2) :
    out1G x0 x1 x2 x3 x4 x5 x6 x7 x8 x9 (ix2 r q)
      = lsm (Cert.ReferenceIdeal.ReadP.val_main_v58 (F := Ideal) x0 x1 x2 x3 x4 x5 x6 x7 x8 x9 (ix2 r 0)) (Cert.ReferenceIdeal.ReadP.val_main_v58 (F := Ideal) x0 x1 x2 x3 x4 x5 x6 x7 x8 x9 (ix2 r 1))
          (Cert.ReferenceIdeal.ReadP.val_main_v58 (F := Ideal) x0 x1 x2 x3 x4 x5 x6 x7 x8 x9 (ix2 r q)) := rfl

/-- WHAT POINT `t` WRITES BACK is block `t` of that array. -/
theorem flushed1
    (hA : V c main_v45 = Cert.ReferenceIdeal.ReadP.val_main_v44 (F := Ideal) x0 x1 x2 x3 x4)
    (hD : V c main_v15 = shapeCast S100000x1 (Cert.ReferenceIdeal.ReadP.val_main_v14 (F := Ideal) x1) shapeCasts_S100000_S100000x1)
    (hH : V c main_v34 = Cert.ReferenceIdeal.ReadP.val_main_v34 (F := Ideal) x0 x1 x2 x3 x4)
    (hWl : V c main_v19 = x5)
    (hWr : V c main_v20 = x6)
    (hB : V c main_v46 = shapeCast S1x128 x7 shapeCasts_S128_S1x128)
    (hWc : V c main_v21 = x8)
    (hBc : V c main_v47 = shapeCast S1x2 x9 shapeCasts_S2_S1x2)
    (t : Fin cfg1.N) :
    (dat1 V c).flushed 8 t = ((cfg1.win 8).blk t).view.read (Elt Ideal) (out1G x0 x1 x2 x3 x4 x5 x6 x7 x8 x9) := by
  show (cfg1.win 8).cut (grid1.coords t) ((dat1 V c).after 8 t) = _
  rw [after1_8]
  unfold out1_8
  rw [View.canon_unit_zero hz1]
  simp only [View.ld_unit_zero (S := S4000x256) hz1, View.ld_unit_zero (S := S4000x1) hz1, View.ld_unit_zero (S := S256x128) hz1,
    View.ld_unit_zero (S := S1x128) hz1, View.ld_unit_zero (S := S128x2) hz1, View.ld_unit_zero (S := S1x2) hz1]
  funext j
  obtain ⟨p, q, rfl⟩ : ∃ (p : Fin 4000) (q : Fin 2), j = ix2 p q := ⟨j 0, j 1, @eq_ix2 4000 2 j⟩
  refine (cut1_8_apply t _ p q).trans (Eq.trans ?_ (read1_8_apply t _ p q).symm)
  rw [out1G_apply]
  refine (body1_apply (iblk1 V c 0 t) (iblk1 V c 1 t) (iblk1 V c 2 t) (iblk1 V c 3 t) (iblk1 V c 5 t) (iblk1 V c 4 t) (iblk1 V c 6 t) (iblk1 V c 7 t) p q).trans ?_
  rw [blk_logit V c x0 x1 x2 x3 x4 x5 x6 x7 x8 x9 hA hD hH hWl hWr hB hWc hBc t p 0, blk_logit V c x0 x1 x2 x3 x4 x5 x6 x7 x8 x9 hA hD hH hWl hWr hB hWc hBc t p 1,
    blk_logit V c x0 x1 x2 x3 x4 x5 x6 x7 x8 x9 hA hD hH hWl hWr hB hWc hBc t p q]

end

end Cert.Sage.Kernel

end
-- ==== Proof.Region1.lean ====
/-
  The second pallas_call's output array.  The 25 blocks the points write back tile the output (row `r` is in block
  `r / 4000`), and point `t` writes block `t` of the array whose entry (r, q) is the scalar log-softmax of node `r`'s two
  reference logits; so after the call the output IS that array.
-/
import proofs.«169809_j36979668418994_2_alg».proof.Proof.Region1Flush

set_option maxRecDepth 16384

noncomputable section

namespace Cert.Sage.Kernel

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

/-- An index of the output array is in point `t`'s block iff each coordinate is in the block's range on its axis. -/
theorem mem_blk1_8 (t : Fin cfg1.N) (i : S100000x2.Idx) :
    i ∈ ((cfg1.win 8).blk t).view.set ↔ ∀ a : Fin 2, win1_8.index t a * S4000x2.size a ≤ (i a).val
      ∧ (i a).val < win1_8.index t a * S4000x2.size a + S4000x2.size a := by
  show i ∈ ((View.whole main_v48).slice (win1_8.rect t)).set ↔ _
  rw [View.set_slice_whole, Rect.mem_set_unit]
  exact Iff.rfl

/-- The 25 blocks tile the output array: row `r` is in block `r / 4000`. -/
theorem cover1_out (i : S100000x2.Idx) : ∃ t : Fin cfg1.N, (cfg1.win 8).flush t = true ∧ i ∈ ((cfg1.win 8).blk t).view.set := by
  have hi0 : (i 0).val < 100000 := (i 0).isLt
  have hi1 : (i 1).val < 2 := (i 1).isLt
  obtain ⟨t, ht⟩ : ∃ t : Fin cfg1.N, t.val = (i 0).val / 4000 := ⟨⟨(i 0).val / 4000, by rw [N1]; omega⟩, rfl⟩
  obtain ⟨-, -, -, -, -, -, -, -, -, -, -, -, -, -, -, -, e0, e1⟩ := idx1 t
  refine ⟨t, flush1_8 t, ?_⟩
  rw [mem_blk1_8]
  intro a
  match a with
  | ⟨0, _⟩ =>
    show win1_8.index t (0 : Fin 2) * 4000 ≤ (i 0).val ∧ (i 0).val < win1_8.index t (0 : Fin 2) * 4000 + 4000
    omega
  | ⟨1, _⟩ =>
    show win1_8.index t (1 : Fin 2) * 2 ≤ (i 1).val ∧ (i 1).val < win1_8.index t (1 : Fin 2) * 2 + 2
    omega

section

variable (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal))
    (x8 : (⟨S128x2, .f32⟩ : BufTy).Contents (Elt Ideal)) (x9 : (⟨S2, .f32⟩ : BufTy).Contents (Elt Ideal))

/-- THE ARRAY after the second call: every entry is the scalar log-softmax of its node's two reference logits. -/
theorem final1
    (hA : V c main_v45 = Cert.ReferenceIdeal.ReadP.val_main_v44 (F := Ideal) x0 x1 x2 x3 x4)
    (hD : V c main_v15 = shapeCast S100000x1 (Cert.ReferenceIdeal.ReadP.val_main_v14 (F := Ideal) x1) shapeCasts_S100000_S100000x1)
    (hH : V c main_v34 = Cert.ReferenceIdeal.ReadP.val_main_v34 (F := Ideal) x0 x1 x2 x3 x4)
    (hWl : V c main_v19 = x5)
    (hWr : V c main_v20 = x6)
    (hB : V c main_v46 = shapeCast S1x128 x7 shapeCasts_S128_S1x128)
    (hWc : V c main_v21 = x8)
    (hBc : V c main_v47 = shapeCast S1x2 x9 shapeCasts_S2_S1x2) :
    (dat1 V c).arrAt 8 cfg1.N = out1G x0 x1 x2 x3 x4 x5 x6 x7 x8 x9 :=
  (dat1 V c).arrAt_eq_of_cover 8 _ (fun t _ => flushed1 V c x0 x1 x2 x3 x4 x5 x6 x7 x8 x9 hA hD hH hWl hWr hB hWc hBc t) cover1_out

/-- The same, read at node `r`, class `q`. -/
theorem final1_apply
    (hA : V c main_v45 = Cert.ReferenceIdeal.ReadP.val_main_v44 (F := Ideal) x0 x1 x2 x3 x4)
    (hD : V c main_v15 = shapeCast S100000x1 (Cert.ReferenceIdeal.ReadP.val_main_v14 (F := Ideal) x1) shapeCasts_S100000_S100000x1)
    (hH : V c main_v34 = Cert.ReferenceIdeal.ReadP.val_main_v34 (F := Ideal) x0 x1 x2 x3 x4)
    (hWl : V c main_v19 = x5)
    (hWr : V c main_v20 = x6)
    (hB : V c main_v46 = shapeCast S1x128 x7 shapeCasts_S128_S1x128)
    (hWc : V c main_v21 = x8)
    (hBc : V c main_v47 = shapeCast S1x2 x9 shapeCasts_S2_S1x2)
    (r : Fin 100000) (q : Fin 2) :
    (dat1 V c).arrAt 8 cfg1.N (ix2 r q)
      = lsm (Cert.ReferenceIdeal.ReadP.val_main_v58 (F := Ideal) x0 x1 x2 x3 x4 x5 x6 x7 x8 x9 (ix2 r 0)) (Cert.ReferenceIdeal.ReadP.val_main_v58 (F := Ideal) x0 x1 x2 x3 x4 x5 x6 x7 x8 x9 (ix2 r 1))
          (Cert.ReferenceIdeal.ReadP.val_main_v58 (F := Ideal) x0 x1 x2 x3 x4 x5 x6 x7 x8 x9 (ix2 r q)) := by
  rw [final1 V c x0 x1 x2 x3 x4 x5 x6 x7 x8 x9 hA hD hH hWl hWr hB hWc hBc]
  rfl

end

end Cert.Sage.Kernel

end
-- ==== Proof.KernelValue.lean ====
/-
  The idealized kernel's result array after its run: the second pallas_call's output, which its 25 written blocks
  fill; each entry is the log-softmax of the node's two logits, the logits being the reference's (its two SAGE layers
  and classifier of the argument arrays), because every array the two calls find is the reference's own stage.
-/
import proofs.«169809_j36979668418994_2_alg».proof.Proof.KernelHost1
import proofs.«169809_j36979668418994_2_alg».proof.Proof.Region1

set_option maxRecDepth 16384

noncomputable section

namespace Cert.Sage.Kernel

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- THE RESULT ARRAY at the last segment boundary, as a function of the argument arrays. -/
theorem kernel_value : W6 m ρ c (Proc.devRef .tc main_v48) = out1G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 8).trans (final1 (V5 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (V5_agg m ρ c) (V5_dinv m ρ c) (V5_h1 m ρ c) (V5_wl m ρ c) (V5_wr m ρ c) (V5_b m ρ c) (V5_wc m ρ c) (V5_bc m ρ c))

end Cert.Sage.Kernel

end
-- ==== Proof.RealClosure.lean ====
/-
  Real-valuedness on the extended reals: an extended real that is a real number, and the operations that keep
  it so — sums, differences, products, maxima, finite sums, a quotient by a nonzero real, a selection — first for
  single values, then entry by entry for arrays under the array operations a program is made of (pointwise
  arithmetic, broadcasts, a gather, a scatter with addition, a matrix product, constants).  Nothing here depends
  on a particular program.
-/
import Idealize.ShloMosaic.PureOps
import Idealize.ShloMosaic.PureOps.Ideal
import Idealize.ShloMosaic.PureOps.Ideal.Laws

noncomputable section

open scoped BigOperators

open Idealize.ShloMosaic

namespace Cert.Sage

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- The inclusion of the reals in the extended reals is monotone, so it carries a maximum to the maximum. -/
theorem coe_max (a b : ℝ) : ((Max.max a b : ℝ) : EReal) = Max.max (a : EReal) (b : EReal) :=
  EReal.coe_strictMono.monotone.map_max

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (coe_max a b).symm⟩

/-- A finite sum of real numbers is a real number. -/
theorem isReal_sum {ι : Type} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A quotient of real numbers by a nonzero one is a real number. -/
theorem IsReal.div {x y : EReal} (hx : IsReal x) (hy : IsReal y) (h0 : y ≠ 0) : IsReal (Ideal.div x y) := by
  obtain ⟨b, rfl⟩ := hy
  have hb : b ≠ 0 := fun h => h0 (by rw [h]; exact EReal.coe_zero)
  rw [Ideal.div_coe hb]
  exact hx.mul (isReal_coe _)

/-- The f32 pattern of `+0.0` is the real number 0. -/
theorem isReal_ofBits_zero : IsReal (Ideal.ofBits .f32 0x00000000#32) := by
  rw [Ideal.ofBits_zero_f32]; exact isReal_zero

/-- The f32 pattern of `1.0` is the extended real 1. -/
theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h]; exact EReal.coe_one

theorem isReal_ofBits_one : IsReal (Ideal.ofBits .f32 0x3F800000#32) := by
  rw [ofBits_one]; exact isReal_one

/-- A maximum with 1 is not 0. -/
theorem max_one_ne_zero (x : EReal) : max x (Ideal.ofBits .f32 0x3F800000#32) ≠ 0 := by
  rw [ofBits_one]
  intro h
  have h1 : (1 : EReal) ≤ max x 1 := le_max_right _ _
  rw [h] at h1
  exact absurd h1 (not_le.2 zero_lt_one)

/-! ### Arrays of real numbers -/

/-- Every entry of the array is a real number. -/
def AllReal {s : Shape} (v : s.Idx → EReal) : Prop := ∀ i, IsReal (v i)

variable {s : Shape} {φ : FTy}

theorem AllReal.addf {a b : FVec Ideal s φ} (ha : AllReal a) (hb : AllReal b) : AllReal (addf a b) :=
  fun i => (ha i).add (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllReal.hostDivf {a b : FVec Ideal s φ} (ha : AllReal a) (hb : AllReal b) (h0 : ∀ i, b i ≠ 0) :
    AllReal (Host.divf a b) :=
  fun i => (ha i).div (hb i) (h0 i)

theorem AllReal.select (c : IVec s 1) {a b : s.Idx → EReal} (ha : AllReal a) (hb : AllReal b) :
    AllReal (select c a b) := fun i => by
  show IsReal (Scalar.select (c i) (a i) (b i))
  unfold Scalar.select
  split
  · exact ha i
  · exact hb i

theorem AllReal.broadcastInDim {t : Shape} (dims : Fin s.rank → Fin t.rank) (h : s.BroadcastsInDim t dims)
    {x : s.Idx → EReal} (hx : AllReal x) : AllReal (broadcastInDim t dims h x) :=
  fun _ => hx _

theorem AllReal.gather {si t : Shape} {w : Nat} (d : GatherDims s si t) {x : s.Idx → EReal} (hx : AllReal x)
    (idx : IVec si w) : AllReal (Host.gather d x idx) :=
  fun _ => hx _

/-- A scatter with addition of real updates into a real array: each entry is the old entry plus a finite sum of updates,
    whichever updates land on it. -/
theorem AllReal.scatterAdd {si su : Shape} {w : Nat} (d : ScatterDims s si su) {x : FVec Ideal s φ}
    {upd : FVec Ideal su φ} (hx : AllReal x) (hupd : AllReal upd) (idx : IVec si w) :
    AllReal (Host.scatterAdd d x idx upd) :=
  fun i => (hx i).add (isReal_sum _ _ fun j _ => hupd j)

/-- A matrix product of real arrays: each entry is a finite sum of products. -/
theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) :=
  fun _ => isReal_zero.add (isReal_sum _ _ fun _ _ => (hl _).mul (hr _))

theorem allReal_constant_zero (t : Shape) : AllReal (constant (F := Ideal) t .f32 0x00000000#32) :=
  fun _ => isReal_ofBits_zero

theorem allReal_constant_one (t : Shape) : AllReal (constant (F := Ideal) t .f32 0x3F800000#32) :=
  fun _ => isReal_ofBits_one

end Cert.Sage

end
-- ==== Proof.RefFinite.lean ====
/-
  Every stage of the reference network, from the edge counts to the logits, is an array of real numbers when the
  float arguments are: the stages are sums, products, maxima, one quotient by a number that is at least 1,
  selections, broadcasts, gathers, scatters with addition and matrix products of arrays already known to be real.
  Which edges land on which node never matters here.
-/
import proofs.«169809_j36979668418994_2_alg».proof.Proof.RefReadP
import proofs.«169809_j36979668418994_2_alg».proof.Proof.RealClosure

noncomputable section

open Idealize.ShloMosaic Cert.ReferenceIdeal Cert.ReferenceIdeal.ReadP

namespace Cert.Sage

/-! ### The inverse degree -/

/-- The ones that are counted. -/
theorem real_v4 :
    AllReal (s := S1000000) (val_main_v4 (F := Ideal)) := by
  unfold val_main_v4 val_main_cst; exact (allReal_constant_one _).broadcastInDim _ _

/-- The zeros the count starts from. -/
theorem real_v5 :
    AllReal (s := S100000) (val_main_v5 (F := Ideal)) := by
  unfold val_main_v5 val_main_cst_0; exact (allReal_constant_zero _).broadcastInDim _ _

/-- The number of edges into each node. -/
theorem real_v7 (x1 : (⟨S2x1000000, .i32⟩ : BufTy).Contents (Elt Ideal)) :
    AllReal (s := S100000) (val_main_v7 (F := Ideal) x1) := by
  unfold val_main_v7; exact real_v5.scatterAdd _ real_v4 _

/-- The ones the count is compared with. -/
theorem real_v10 :
    AllReal (s := S100000) (val_main_v10 (F := Ideal)) := by
  unfold val_main_v10 val_main_cst_2; exact (allReal_constant_one _).broadcastInDim _ _

/-- The count, or 1 where it is smaller. -/
theorem real_v11 (x1 : (⟨S2x1000000, .i32⟩ : BufTy).Contents (Elt Ideal)) :
    AllReal (s := S100000) (val_main_v11 (F := Ideal) x1) := by
  unfold val_main_v11; exact (real_v7 x1).maximumf real_v10

/-- The count, or 1 where it is smaller, is at least 1, so it is not 0. -/
theorem v11_ne_zero (x1 : (⟨S2x1000000, .i32⟩ : BufTy).Contents (Elt Ideal)) (i : S100000.Idx) : val_main_v11 (F := Ideal) x1 i ≠ 0 := by
  rw [val_main_v11_apply, val_main_v10_apply, val_main_cst_2_apply]
  exact max_one_ne_zero _

/-- The ones that are divided. -/
theorem real_v12 :
    AllReal (s := S100000) (val_main_v12 (F := Ideal)) := by
  unfold val_main_v12 val_main_cst_3; exact (allReal_constant_one _).broadcastInDim _ _

/-- One over the count, or over 1. -/
theorem real_v13 (x1 : (⟨S2x1000000, .i32⟩ : BufTy).Contents (Elt Ideal)) :
    AllReal (s := S100000) (val_main_v13 (F := Ideal) x1) := by
  unfold val_main_v13; exact real_v12.hostDivf (real_v11 x1) (v11_ne_zero x1)

/-- The zeros for the nodes without an edge. -/
theorem real_call0_v1 :
    AllReal (s := S100000) (val_main_call0_v1 (F := Ideal)) := by
  unfold val_main_call0_v1 val_main_call0_v0 val_main_cst_4; exact (allReal_constant_zero _).broadcastInDim _ _

/-- The inverse degree: one over the count, or 0 for a node without an edge. -/
theorem real_v14 (x1 : (⟨S2x1000000, .i32⟩ : BufTy).Contents (Elt Ideal)) :
    AllReal (s := S100000) (val_main_v14 (F := Ideal) x1) := by
  unfold val_main_v14; exact (real_v13 x1).select _ real_call0_v1

/-! ### The first layer -/

/-- The source node's features, edge by edge. -/
theorem real_v21 (x0 : (⟨S100000x256, .f32⟩ : BufTy).Contents (Elt Ideal)) (x1 : (⟨S2x1000000, .i32⟩ : BufTy).Contents (Elt Ideal)) (h0 : AllReal (s := S100000x256) x0) :
    AllReal (s := S1000000x256) (val_main_v21 (F := Ideal) x0 x1) := by
  unfold val_main_v21; exact h0.gather _ _

/-- The zeros the neighbour sums start from. -/
theorem real_v22 :
    AllReal (s := S100000x256) (val_main_v22 (F := Ideal)) := by
  unfold val_main_v22 val_main_cst_6; exact (allReal_constant_zero _).broadcastInDim _ _

/-- The sum of the neighbours' features. -/
theorem real_v24 (x0 : (⟨S100000x256, .f32⟩ : BufTy).Contents (Elt Ideal)) (x1 : (⟨S2x1000000, .i32⟩ : BufTy).Contents (Elt Ideal)) (h0 : AllReal (s := S100000x256) x0) :
    AllReal (s := S100000x256) (val_main_v24 (F := Ideal) x0 x1) := by
  unfold val_main_v24; exact real_v22.scatterAdd _ (real_v21 x0 x1 h0) _

/-- The inverse degree along every feature. -/
theorem real_v26 (x1 : (⟨S2x1000000, .i32⟩ : BufTy).Contents (Elt Ideal)) :
    AllReal (s := S100000x256) (val_main_v26 (F := Ideal) x1) := by
  unfold val_main_v26 val_main_v25; exact ((real_v14 x1).broadcastInDim _ _).broadcastInDim _ _

/-- The mean of the neighbours' features. -/
theorem real_v27 (x0 : (⟨S100000x256, .f32⟩ : BufTy).Contents (Elt Ideal)) (x1 : (⟨S2x1000000, .i32⟩ : BufTy).Contents (Elt Ideal)) (h0 : AllReal (s := S100000x256) x0) :
    AllReal (s := S100000x256) (val_main_v27 (F := Ideal) x0 x1) := by
  unfold val_main_v27; exact (real_v24 x0 x1 h0).mulf (real_v26 x1)

/-- The mean times the neighbour weights. -/
theorem real_v28 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (h0 : AllReal (s := S100000x256) x0) (h2 : AllReal (s := S256x256) x2) :
    AllReal (s := S100000x256) (val_main_v28 (F := Ideal) x0 x1 x2) := by
  unfold val_main_v28; exact (real_v27 x0 x1 h0).dotGeneral _ _ h2

/-- The bias along every node. -/
theorem real_v30 (x4 : (⟨S256, .f32⟩ : BufTy).Contents (Elt Ideal)) (h4 : AllReal (s := S256) x4) :
    AllReal (s := S100000x256) (val_main_v30 (F := Ideal) x4) := by
  unfold val_main_v30 val_main_v29; exact (h4.broadcastInDim _ _).broadcastInDim _ _

/-- Plus the bias. -/
theorem real_v31 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x4 : (⟨S256, .f32⟩ : BufTy).Contents (Elt Ideal)) (h0 : AllReal (s := S100000x256) x0) (h2 : AllReal (s := S256x256) x2) (h4 : AllReal (s := S256) x4) :
    AllReal (s := S100000x256) (val_main_v31 (F := Ideal) x0 x1 x2 x4) := by
  unfold val_main_v31; exact (real_v28 x0 x1 x2 h0 h2).addf (real_v30 x4 h4)

/-- The node's own features times the root weights. -/
theorem real_v32 (x0 : (⟨S100000x256, .f32⟩ : BufTy).Contents (Elt Ideal)) (x3 : (⟨S256x256, .f32⟩ : BufTy).Contents (Elt Ideal)) (h0 : AllReal (s := S100000x256) x0) (h3 : AllReal (s := S256x256) x3) :
    AllReal (s := S100000x256) (val_main_v32 (F := Ideal) x0 x3) := by
  unfold val_main_v32; exact h0.dotGeneral _ _ h3

/-- The first layer before its activation. -/
theorem real_v33 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (h0 : AllReal (s := S100000x256) x0) (h2 : AllReal (s := S256x256) x2) (h3 : AllReal (s := S256x256) x3) (h4 : AllReal (s := S256) x4) :
    AllReal (s := S100000x256) (val_main_v33 (F := Ideal) x0 x1 x2 x3 x4) := by
  unfold val_main_v33; exact (real_v31 x0 x1 x2 x4 h0 h2 h4).addf (real_v32 x0 x3 h0 h3)

/-- The zeros of the activation. -/
theorem real_call1_v0 :
    AllReal (s := S100000x256) (val_main_call1_v0 (F := Ideal)) := by
  unfold val_main_call1_v0 val_main_call1_cst; exact (allReal_constant_zero _).broadcastInDim _ _

/-- The first layer's output. -/
theorem real_v34 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (h0 : AllReal (s := S100000x256) x0) (h2 : AllReal (s := S256x256) x2) (h3 : AllReal (s := S256x256) x3) (h4 : AllReal (s := S256) x4) :
    AllReal (s := S100000x256) (val_main_v34 (F := Ideal) x0 x1 x2 x3 x4) := by
  unfold val_main_v34; exact (real_v33 x0 x1 x2 x3 x4 h0 h2 h3 h4).maximumf real_call1_v0

/-! ### The second layer -/

/-- The source node's hidden features, edge by edge. -/
theorem real_v41 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (h0 : AllReal (s := S100000x256) x0) (h2 : AllReal (s := S256x256) x2) (h3 : AllReal (s := S256x256) x3) (h4 : AllReal (s := S256) x4) :
    AllReal (s := S1000000x256) (val_main_v41 (F := Ideal) x0 x1 x2 x3 x4) := by
  unfold val_main_v41; exact (real_v34 x0 x1 x2 x3 x4 h0 h2 h3 h4).gather _ _

/-- The zeros the neighbour sums start from. -/
theorem real_v42 :
    AllReal (s := S100000x256) (val_main_v42 (F := Ideal)) := by
  unfold val_main_v42 val_main_cst_9; exact (allReal_constant_zero _).broadcastInDim _ _

/-- The sum of the neighbours' hidden features. -/
theorem real_v44 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (h0 : AllReal (s := S100000x256) x0) (h2 : AllReal (s := S256x256) x2) (h3 : AllReal (s := S256x256) x3) (h4 : AllReal (s := S256) x4) :
    AllReal (s := S100000x256) (val_main_v44 (F := Ideal) x0 x1 x2 x3 x4) := by
  unfold val_main_v44; exact real_v42.scatterAdd _ (real_v41 x0 x1 x2 x3 x4 h0 h2 h3 h4) _

/-- The inverse degree along every hidden feature. -/
theorem real_v46 (x1 : (⟨S2x1000000, .i32⟩ : BufTy).Contents (Elt Ideal)) :
    AllReal (s := S100000x256) (val_main_v46 (F := Ideal) x1) := by
  unfold val_main_v46 val_main_v45; exact ((real_v14 x1).broadcastInDim _ _).broadcastInDim _ _

/-- The mean of the neighbours' hidden features. -/
theorem real_v47 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (h0 : AllReal (s := S100000x256) x0) (h2 : AllReal (s := S256x256) x2) (h3 : AllReal (s := S256x256) x3) (h4 : AllReal (s := S256) x4) :
    AllReal (s := S100000x256) (val_main_v47 (F := Ideal) x0 x1 x2 x3 x4) := by
  unfold val_main_v47; exact (real_v44 x0 x1 x2 x3 x4 h0 h2 h3 h4).mulf (real_v46 x1)

/-- The mean times the neighbour weights. -/
theorem real_v48 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (h0 : AllReal (s := S100000x256) x0) (h2 : AllReal (s := S256x256) x2) (h3 : AllReal (s := S256x256) x3) (h4 : AllReal (s := S256) x4) (h5 : AllReal (s := S256x128) x5) :
    AllReal (s := S100000x128) (val_main_v48 (F := Ideal) x0 x1 x2 x3 x4 x5) := by
  unfold val_main_v48; exact (real_v47 x0 x1 x2 x3 x4 h0 h2 h3 h4).dotGeneral _ _ h5

/-- The bias along every node. -/
theorem real_v50 (x7 : (⟨S128, .f32⟩ : BufTy).Contents (Elt Ideal)) (h7 : AllReal (s := S128) x7) :
    AllReal (s := S100000x128) (val_main_v50 (F := Ideal) x7) := by
  unfold val_main_v50 val_main_v49; exact (h7.broadcastInDim _ _).broadcastInDim _ _

/-- Plus the bias. -/
theorem real_v51 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x7 : (⟨S128, .f32⟩ : BufTy).Contents (Elt Ideal)) (h0 : AllReal (s := S100000x256) x0) (h2 : AllReal (s := S256x256) x2) (h3 : AllReal (s := S256x256) x3) (h4 : AllReal (s := S256) x4) (h5 : AllReal (s := S256x128) x5) (h7 : AllReal (s := S128) x7) :
    AllReal (s := S100000x128) (val_main_v51 (F := Ideal) x0 x1 x2 x3 x4 x5 x7) := by
  unfold val_main_v51; exact (real_v48 x0 x1 x2 x3 x4 x5 h0 h2 h3 h4 h5).addf (real_v50 x7 h7)

/-- The node's own hidden features times the root weights. -/
theorem real_v52 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x6 : (⟨S256x128, .f32⟩ : BufTy).Contents (Elt Ideal)) (h0 : AllReal (s := S100000x256) x0) (h2 : AllReal (s := S256x256) x2) (h3 : AllReal (s := S256x256) x3) (h4 : AllReal (s := S256) x4) (h6 : AllReal (s := S256x128) x6) :
    AllReal (s := S100000x128) (val_main_v52 (F := Ideal) x0 x1 x2 x3 x4 x6) := by
  unfold val_main_v52; exact (real_v34 x0 x1 x2 x3 x4 h0 h2 h3 h4).dotGeneral _ _ h6

/-- The second layer before its activation. -/
theorem real_v53 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S256x128, .f32⟩ : BufTy).Contents (Elt Ideal)) (x7 : (⟨S128, .f32⟩ : BufTy).Contents (Elt Ideal)) (h0 : AllReal (s := S100000x256) x0) (h2 : AllReal (s := S256x256) x2) (h3 : AllReal (s := S256x256) x3) (h4 : AllReal (s := S256) x4) (h5 : AllReal (s := S256x128) x5) (h6 : AllReal (s := S256x128) x6) (h7 : AllReal (s := S128) x7) :
    AllReal (s := S100000x128) (val_main_v53 (F := Ideal) x0 x1 x2 x3 x4 x5 x6 x7) := by
  unfold val_main_v53; exact (real_v51 x0 x1 x2 x3 x4 x5 x7 h0 h2 h3 h4 h5 h7).addf (real_v52 x0 x1 x2 x3 x4 x6 h0 h2 h3 h4 h6)

/-- The zeros of the activation. -/
theorem real_call2_v0 :
    AllReal (s := S100000x128) (val_main_call2_v0 (F := Ideal)) := by
  unfold val_main_call2_v0 val_main_call2_cst; exact (allReal_constant_zero _).broadcastInDim _ _

/-- The second layer's output. -/
theorem real_v54 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S256x128, .f32⟩ : BufTy).Contents (Elt Ideal)) (x7 : (⟨S128, .f32⟩ : BufTy).Contents (Elt Ideal)) (h0 : AllReal (s := S100000x256) x0) (h2 : AllReal (s := S256x256) x2) (h3 : AllReal (s := S256x256) x3) (h4 : AllReal (s := S256) x4) (h5 : AllReal (s := S256x128) x5) (h6 : AllReal (s := S256x128) x6) (h7 : AllReal (s := S128) x7) :
    AllReal (s := S100000x128) (val_main_v54 (F := Ideal) x0 x1 x2 x3 x4 x5 x6 x7) := by
  unfold val_main_v54; exact (real_v53 x0 x1 x2 x3 x4 x5 x6 x7 h0 h2 h3 h4 h5 h6 h7).maximumf real_call2_v0

/-! ### The classifier -/

/-- The hidden features times the classifier weights. -/
theorem real_v55 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S256x128, .f32⟩ : BufTy).Contents (Elt Ideal)) (x7 : (⟨S128, .f32⟩ : BufTy).Contents (Elt Ideal)) (x8 : (⟨S128x2, .f32⟩ : BufTy).Contents (Elt Ideal)) (h0 : AllReal (s := S100000x256) x0) (h2 : AllReal (s := S256x256) x2) (h3 : AllReal (s := S256x256) x3) (h4 : AllReal (s := S256) x4) (h5 : AllReal (s := S256x128) x5) (h6 : AllReal (s := S256x128) x6) (h7 : AllReal (s := S128) x7) (h8 : AllReal (s := S128x2) x8) :
    AllReal (s := S100000x2) (val_main_v55 (F := Ideal) x0 x1 x2 x3 x4 x5 x6 x7 x8) := by
  unfold val_main_v55; exact (real_v54 x0 x1 x2 x3 x4 x5 x6 x7 h0 h2 h3 h4 h5 h6 h7).dotGeneral _ _ h8

/-- The classifier bias along every node. -/
theorem real_v57 (x9 : (⟨S2, .f32⟩ : BufTy).Contents (Elt Ideal)) (h9 : AllReal (s := S2) x9) :
    AllReal (s := S100000x2) (val_main_v57 (F := Ideal) x9) := by
  unfold val_main_v57 val_main_v56; exact (h9.broadcastInDim _ _).broadcastInDim _ _

/-- The logits. -/
theorem real_v58 (x0 : (⟨S100000x256, .f32⟩ : BufTy).Contents (Elt Ideal)) (x1 : (⟨S2x1000000, .i32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S256x128, .f32⟩ : BufTy).Contents (Elt Ideal)) (x7 : (⟨S128, .f32⟩ : BufTy).Contents (Elt Ideal)) (x8 : (⟨S128x2, .f32⟩ : BufTy).Contents (Elt Ideal)) (x9 : (⟨S2, .f32⟩ : BufTy).Contents (Elt Ideal)) (h0 : AllReal (s := S100000x256) x0) (h2 : AllReal (s := S256x256) x2) (h3 : AllReal (s := S256x256) x3) (h4 : AllReal (s := S256) x4) (h5 : AllReal (s := S256x128) x5) (h6 : AllReal (s := S256x128) x6) (h7 : AllReal (s := S128) x7) (h8 : AllReal (s := S128x2) x8) (h9 : AllReal (s := S2) x9) :
    AllReal (s := S100000x2) (val_main_v58 (F := Ideal) x0 x1 x2 x3 x4 x5 x6 x7 x8 x9) := by
  unfold val_main_v58; exact (real_v55 x0 x1 x2 x3 x4 x5 x6 x7 x8 h0 h2 h3 h4 h5 h6 h7 h8).addf (real_v57 x9 h9)

end Cert.Sage

end
-- ==== Proof.RowMax.lean ====
/-
  The host's maximum over the second axis of an array with two columns, started from -infinity, read at a row:
  the larger of the row's two entries.  Nothing here depends on a particular program.
-/
import proofs.«169809_j36979668418994_2_alg».proof.Proof.LibMaxFold

noncomputable section

open Idealize.ShloMosaic Idealize.ShloMosaic.ValueIdx Cert.Lib.MaxFold

namespace Cert.Sage

/-- The maximum, from the bottom, of a family of two extended reals is the larger of the two. -/
theorem fold_max_fin_two (f : Fin 2 → EReal) : (Finset.univ : Finset (Fin 2)).fold max ⊥ f = max (f 0) (f 1) := by
  apply le_antisymm
  · exact (fold_max_univ_le f _).2 (Fin.forall_fin_two.2 ⟨le_max_left _ _, le_max_right _ _⟩)
  · exact max_le ((fold_max_univ_le f _).1 le_rfl 0) ((fold_max_univ_le f _).1 le_rfl 1)

/-- The host's maximum over axis 1 of an `[A, 2]` array from the constant -infinity, read at row `p`: the larger of
    the array at `(p, 0)` and at `(p, 1)`. -/
theorem hostRowMax_two_apply {A : ℕ} {u : Shape} (x : FVec Ideal ⟨2, ![A, 2]⟩ .f32)
    (h' : (⟨2, ![A, 2]⟩ : Shape).ReducesTo [1] ⟨1, ![A]⟩) (h : (⟨2, ![A, 2]⟩ : Shape).Reduces [1] ⟨1, ![A]⟩)
    (hu : 0 < u.numel) (p : Fin A) :
    Host.reduce FloatOps.maximumf x (constant (F := Ideal) u .f32 0xFF800000#32) h' hu (ix1 p)
      = max (x (ix2 p 0)) (x (ix2 p 1)) := by
  rw [hostMaxRed_apply x h' h hu (ix1 p)]
  have e : (x ∘ h.lift (ix1 p) : Fin 2 → EReal) = fun k => x (ix2 p k) :=
    funext fun k => congrArg x (funext fun a => Fin.ext (by
      match a with
      | ⟨0, _⟩ => rfl
      | ⟨1, _⟩ => rfl))
  exact (congrArg (fun g : Fin 2 → EReal => (Finset.univ : Finset (Fin 2)).fold max ⊥ g) e).trans (fold_max_fin_two _)

end Cert.Sage

end
-- ==== Proof.LsmScalar.lean ====
/-
  The scalar step behind the log-softmax of a row of two real logits: subtracting the row maximum first and the
  logarithm of the sum of the shifted exponentials second gives the same number as subtracting their sum at once.
  On the extended reals the two differ at infinite logits; for real logits every intermediate value is a real
  number (the shifted exponentials are positive, so their sum has a real logarithm) and the identity is the
  associativity of real addition.
-/
import proofs.«169809_j36979668418994_2_alg».proof.Proof.Spec
import proofs.«169809_j36979668418994_2_alg».proof.Proof.RealClosure

noncomputable section

open Idealize.ShloMosaic

namespace Cert.Sage

/-- For real logits `a0`, `a1` and a real `a`: `(a - m) - log (0 + (exp (a0 - m) + exp (a1 - m)))`, with `m` the larger of
    `a0` and `a1`, is `lsm a0 a1 a`. -/
theorem shifted_sub_log_eq_lsm (a0 a1 a : EReal) (h0 : IsReal a0) (h1 : IsReal a1) (ha : IsReal a) :
    (a - max a0 a1) - Ideal.log (0 + (Ideal.exp (a0 - max a0 a1) + Ideal.exp (a1 - max a0 a1))) = lsm a0 a1 a := by
  obtain ⟨r0, rfl⟩ := h0
  obtain ⟨r1, rfl⟩ := h1
  obtain ⟨r, rfl⟩ := ha
  unfold lsm
  have hpos : ¬ (Real.exp (r0 - Max.max r0 r1) + Real.exp (r1 - Max.max r0 r1) ≤ 0) :=
    not_le.2 (add_pos (Real.exp_pos _) (Real.exp_pos _))
  simp only [zero_add, ← coe_max, ← EReal.coe_sub, Ideal.exp_coe, ← EReal.coe_add, Ideal.log_coe, if_neg hpos]
  exact congrArg Real.toEReal (by ring)

end Cert.Sage

end
-- ==== Proof.RefOut.lean ====
/-
  The reference's result at an entry, as the scalar log-softmax of the row's two logits.  The reference subtracts
  the row maximum from the logits, sums the exponentials of the shifted logits over the two classes, and subtracts
  the logarithm of that sum from the shifted logit.  Read at row `r`, class `c`, that is
  `(L r c - m) - log (0 + (exp (L r 0 - m) + exp (L r 1 - m)))` with `m` the larger of `L r 0`, `L r 1`; the logits are real
  numbers when the arguments are, and for real logits this is `lsm (L r 0) (L r 1) (L r c)`.
-/
import proofs.«169809_j36979668418994_2_alg».proof.Proof.RefReadP
import proofs.«169809_j36979668418994_2_alg».proof.Proof.RefFinite
import proofs.«169809_j36979668418994_2_alg».proof.Proof.RowMax
import proofs.«169809_j36979668418994_2_alg».proof.Proof.LsmScalar
import proofs.«169809_j36979668418994_2_alg».proof.Proof.LibMaxFold

noncomputable section

open Idealize.ShloMosaic Idealize.ShloMosaic.ValueIdx Cert.ReferenceIdeal Cert.ReferenceIdeal.Gen Cert.ReferenceIdeal.ReadP
open Cert.Lib.MaxFold

namespace Cert.Sage

/-! ### Where the broadcasts and the row sum read -/

/-- The row maximum broadcast back over the two classes is read at the row. -/
theorem idx_rowmax_bcast (r : Fin 100000) (c : Fin 2) :
    idx_main_call3_v3 (idx_main_call3_v4 (ix2 r c)) = ix1 r :=
  funext fun a => Fin.ext (by
    match a with
    | ⟨0, _⟩ => rfl)

/-- The logarithm of the row sum broadcast back over the two classes is read at the row. -/
theorem idx_rowlog_bcast (r : Fin 100000) (c : Fin 2) :
    idx_main_call3_v8 (idx_main_call3_v10 (ix2 r c)) = ix1 r :=
  funext fun a => Fin.ext (by
    match a with
    | ⟨0, _⟩ => rfl)

/-- The row sum at row `r` reads class `k` of that row. -/
theorem idx_rowsum (r : Fin 100000) (k : Fin 2) : idx_main_call3_v7 (ix1 r) k = ix2 r k :=
  funext fun a => Fin.ext (by
    match a with
    | ⟨0, _⟩ => rfl
    | ⟨1, _⟩ => rfl)

section

variable (x0 : (⟨S100000x256, .f32⟩ : BufTy).Contents (Elt Ideal))
    (x1 : (⟨S2x1000000, .i32⟩ : BufTy).Contents (Elt Ideal))
    (x2 : (⟨S256x256, .f32⟩ : BufTy).Contents (Elt Ideal))
    (x3 : (⟨S256x256, .f32⟩ : BufTy).Contents (Elt Ideal))
    (x4 : (⟨S256, .f32⟩ : BufTy).Contents (Elt Ideal))
    (x5 : (⟨S256x128, .f32⟩ : BufTy).Contents (Elt Ideal))
    (x6 : (⟨S256x128, .f32⟩ : BufTy).Contents (Elt Ideal))
    (x7 : (⟨S128, .f32⟩ : BufTy).Contents (Elt Ideal))
    (x8 : (⟨S128x2, .f32⟩ : BufTy).Contents (Elt Ideal))
    (x9 : (⟨S2, .f32⟩ : BufTy).Contents (Elt Ideal))

/-- The reference's row maximum at row `r`: the larger of the row's two logits. -/
theorem ref_rowmax (r : Fin 100000) :
    val_main_call3_v2 (F := Ideal) x0 x1 x2 x3 x4 x5 x6 x7 x8 x9 (ix1 r)
      = max (val_main_v58 (F := Ideal) x0 x1 x2 x3 x4 x5 x6 x7 x8 x9 (ix2 r 0)) (val_main_v58 (F := Ideal) x0 x1 x2 x3 x4 x5 x6 x7 x8 x9 (ix2 r 1)) := by
  rw [val_main_call3_v2_apply, val_main_call3_v1_apply, val_main_call3_cst_0_apply]
  unfold val_main_call3_v0 val_main_call3_cst
  generalize val_main_v58 (F := Ideal) x0 x1 x2 x3 x4 x5 x6 x7 x8 x9 = L
  show max (Ideal.ofBits .f32 0xFF800000#32)
      (Host.reduce FloatOps.maximumf L (constant (F := Ideal) S_ .f32 0xFF800000#32) reducesTo_S100000x2_S100000_d1 h_S_ (ix1 r)) = _
  rw [ofBits_neg_inf, max_bot_left]
  exact hostRowMax_two_apply L reducesTo_S100000x2_S100000_d1 (by decide) h_S_ r

/-- The shifted logit at row `r`, class `c`: the logit minus the row maximum. -/
theorem ref_shifted (r : Fin 100000) (c : Fin 2) :
    val_main_call3_v5 (F := Ideal) x0 x1 x2 x3 x4 x5 x6 x7 x8 x9 (ix2 r c)
      = val_main_v58 (F := Ideal) x0 x1 x2 x3 x4 x5 x6 x7 x8 x9 (ix2 r c)
        - max (val_main_v58 (F := Ideal) x0 x1 x2 x3 x4 x5 x6 x7 x8 x9 (ix2 r 0)) (val_main_v58 (F := Ideal) x0 x1 x2 x3 x4 x5 x6 x7 x8 x9 (ix2 r 1)) := by
  rw [val_main_call3_v5_apply, val_main_call3_v4_apply, val_main_call3_v3_apply, idx_rowmax_bcast, ref_rowmax]
  exact Ideal.subf_def _ _

/-- The row sum at row `r`: zero plus the exponentials of the row's two shifted logits. -/
theorem ref_rowsum (r : Fin 100000) :
    val_main_call3_v7 (F := Ideal) x0 x1 x2 x3 x4 x5 x6 x7 x8 x9 (ix1 r)
      = 0 + (Ideal.exp (val_main_call3_v5 (F := Ideal) x0 x1 x2 x3 x4 x5 x6 x7 x8 x9 (ix2 r 0))
            + Ideal.exp (val_main_call3_v5 (F := Ideal) x0 x1 x2 x3 x4 x5 x6 x7 x8 x9 (ix2 r 1))) := by
  rw [val_main_call3_v7_apply, val_main_call3_cst_1_apply, Fin.sum_univ_two, idx_rowsum, idx_rowsum,
    val_main_call3_v6_apply, val_main_call3_v6_apply]
  generalize val_main_call3_v5 (F := Ideal) x0 x1 x2 x3 x4 x5 x6 x7 x8 x9 (ix2 r 0) = a
  generalize val_main_call3_v5 (F := Ideal) x0 x1 x2 x3 x4 x5 x6 x7 x8 x9 (ix2 r 1) = b
  rw [Ideal.ofBits_def, Ideal.ofBits_zero_f32, Ideal.hostUnary_exp_def, Ideal.hostUnary_exp_def]

/-- The reference's result at row `r`, class `c`, for real arguments: the scalar log-softmax of the row's two logits,
    read at the entry's logit. -/
theorem ref_out
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal)) (h9 : ∀ i, ∃ r : ℝ, x9 i = (r : EReal))
    (r : Fin 100000) (c : Fin 2) :
    val_main_v59 (F := Ideal) x0 x1 x2 x3 x4 x5 x6 x7 x8 x9 (ix2 r c)
      = Cert.Sage.lsm (val_main_v58 (F := Ideal) x0 x1 x2 x3 x4 x5 x6 x7 x8 x9 (ix2 r 0))
          (val_main_v58 (F := Ideal) x0 x1 x2 x3 x4 x5 x6 x7 x8 x9 (ix2 r 1))
          (val_main_v58 (F := Ideal) x0 x1 x2 x3 x4 x5 x6 x7 x8 x9 (ix2 r c)) := by
  have hL : AllReal (s := S100000x2) (val_main_v58 (F := Ideal) x0 x1 x2 x3 x4 x5 x6 x7 x8 x9) :=
    real_v58 x0 x1 x2 x3 x4 x5 x6 x7 x8 x9 h0 h2 h3 h4 h5 h6 h7 h8 h9
  have hc := hL (ix2 r c)
  have hr0 := hL (ix2 r 0)
  have hr1 := hL (ix2 r 1)
  rw [val_main_v59_apply, val_main_call3_v10_apply, val_main_call3_v9_apply, val_main_call3_v8_apply, idx_rowlog_bcast,
    ref_rowsum]
  simp only [ref_shifted, Ideal.subf_def, Ideal.hostUnary_log_def]
  generalize val_main_v58 (F := Ideal) x0 x1 x2 x3 x4 x5 x6 x7 x8 x9 (ix2 r c) = a at hc ⊢
  generalize val_main_v58 (F := Ideal) x0 x1 x2 x3 x4 x5 x6 x7 x8 x9 (ix2 r 0) = a0 at hr0 ⊢
  generalize val_main_v58 (F := Ideal) x0 x1 x2 x3 x4 x5 x6 x7 x8 x9 (ix2 r 1) = a1 at hr1 ⊢
  exact shifted_sub_log_eq_lsm a0 a1 a hr0 hr1 hc

end

end Cert.Sage

end
-- ==== Proof.RefValue.lean ====
/-
  The reference's result array, for real arguments, is the array the kernel's second call leaves: at node `r`,
  class `q`, both are the scalar log-softmax of node `r`'s two reference logits read at logit `q`.
-/
import proofs.«169809_j36979668418994_2_alg».proof.Proof.RefOut
import proofs.«169809_j36979668418994_2_alg».proof.Proof.Region1Flush

noncomputable section

open Idealize.ShloMosaic Idealize.ShloMosaic.ValueIdx Cert.ReferenceIdeal

namespace Cert.Sage

/-- For real arguments the reference's result is the array of scalar log-softmaxes of the reference logits. -/
theorem ref_eq_out1G
    (x0 : (⟨S100000x256, .f32⟩ : BufTy).Contents (Elt Ideal))
    (x1 : (⟨S2x1000000, .i32⟩ : BufTy).Contents (Elt Ideal))
    (x2 : (⟨S256x256, .f32⟩ : BufTy).Contents (Elt Ideal))
    (x3 : (⟨S256x256, .f32⟩ : BufTy).Contents (Elt Ideal))
    (x4 : (⟨S256, .f32⟩ : BufTy).Contents (Elt Ideal))
    (x5 : (⟨S256x128, .f32⟩ : BufTy).Contents (Elt Ideal))
    (x6 : (⟨S256x128, .f32⟩ : BufTy).Contents (Elt Ideal))
    (x7 : (⟨S128, .f32⟩ : BufTy).Contents (Elt Ideal))
    (x8 : (⟨S128x2, .f32⟩ : BufTy).Contents (Elt Ideal))
    (x9 : (⟨S2, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal)) (h9 : ∀ i, ∃ r : ℝ, x9 i = (r : EReal)) :
    Cert.ReferenceIdeal.ReadP.val_main_v59 (F := Ideal) x0 x1 x2 x3 x4 x5 x6 x7 x8 x9 = Cert.Sage.Kernel.out1G x0 x1 x2 x3 x4 x5 x6 x7 x8 x9 := by
  funext i
  obtain ⟨r, q, rfl⟩ : ∃ (r : Fin 100000) (q : Fin 2), i = ix2 r q := ⟨i 0, i 1, @eq_ix2 100000 2 i⟩
  exact (ref_out x0 x1 x2 x3 x4 x5 x6 x7 x8 x9 h0 h2 h3 h4 h5 h6 h7 h8 h9 r q).trans (Cert.Sage.Kernel.out1G_apply x0 x1 x2 x3 x4 x5 x6 x7 x8 x9 r q).symm

end Cert.Sage

end
-- ==== Proof.PreFinite.lean ====
/-
  From the finiteness predicate on the arguments to the statement it encodes: every entry of every float
  argument is a real number (neither infinity).  The predicate compares the absolute value of each entry
  with +infinity and takes the conjunction over all entries and all arguments.
-/
import proofs.«169809_j36979668418994_2_alg».proof.Proof.Gen.Pre_finite_inputs
import Idealize.ShloMosaic.Lib.ReduceAll
import Idealize.ShloMosaic.Lib.ValueIdx
import Idealize.ShloMosaic.PureOps.Ideal

noncomputable section

namespace Cert.Sage

open Idealize.ShloMosaic Idealize.ShloMosaic.ValueIdx Cert.Pre_finite_inputs Cert.Pre_finite_inputs.Gen

/-- The rank-zero shape has one index. -/
instance subsingleton_scalar_idx : Subsingleton S_.Idx := ⟨fun a b => funext fun d => d.elim0⟩

/-- An extended real whose absolute value lies strictly below +infinity is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- One argument's conjunct: if the conjunction over all entries of "absolute value below +infinity" holds,
    every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have hi := Host.reduce_andi_all _ _ hr hu ix0 e i
  exact real_of_abs_lt_inf (x i) hi

/-- The finiteness predicate, when it holds, says that every entry of the nine float arguments is a real number. -/
theorem pre_finite (a0 : FVec Ideal S100000x256 .f32) (a1 : IVec S2x1000000 32) (a2 a3 : FVec Ideal S256x256 .f32)
    (a4 : FVec Ideal S256 .f32) (a5 a6 : FVec Ideal S256x128 .f32) (a7 : FVec Ideal S128 .f32)
    (a8 : FVec Ideal S128x2 .f32) (a9 : FVec Ideal S2 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal)) := by
  have h0 := congrFun h ix0
  dsimp only [fn, fn_part1, fn_part2, andi] at h0
  simp only [IntOp.andi_eq_one] at h0
  obtain ⟨⟨⟨⟨⟨⟨⟨⟨e0, e2⟩, e3⟩, e4⟩, e5⟩, e6⟩, e7⟩, e8⟩, e9⟩ := h0
  exact ⟨all_real a0 _ _ _ e0, all_real a2 _ _ _ e2, all_real a3 _ _ _ e3, all_real a4 _ _ _ e4,
    all_real a5 _ _ _ e5, all_real a6 _ _ _ e6, all_real a7 _ _ _ e7, all_real a8 _ _ _ e8, all_real a9 _ _ _ e9⟩

end Cert.Sage

end
-- ==== Proof.lean ====
/-
  The certificate's claims for the two-layer SAGE network with a log-softmax classifier.
  The three programs run (the generated frames and the generated reference run).  The idealized kernel and the
  reference end with equal results at the ideal instance: the kernel's second call leaves, at node `r` and class `q`,
  the scalar log-softmax `logit - (m + log s)` of the node's two logits, `m` their maximum and `s` the sum of the
  exponentials of the logits less `m`; the reference computes `(logit - m) - log s`.  The two differ at infinite logits,
  and agree for real ones: the precondition says every entry of every float argument is a real number, the logits
  are then real numbers (every stage of the network is built from sums, products, maxima, a quotient by a count that
  is at least 1, gathers and scatters of real arrays), and on real numbers the two forms are one.
-/
import proofs.«169809_j36979668418994_2_alg».proof.Defs
import proofs.«169809_j36979668418994_2_alg».proof.Proof.Gen.Kernel
import proofs.«169809_j36979668418994_2_alg».proof.Proof.Gen.Kernel.Frame
import proofs.«169809_j36979668418994_2_alg».proof.Proof.Gen.KernelIdeal
import proofs.«169809_j36979668418994_2_alg».proof.Proof.Gen.KernelIdeal.Frame
import proofs.«169809_j36979668418994_2_alg».proof.Proof.Gen.ReferenceIdeal
import proofs.«169809_j36979668418994_2_alg».proof.Proof.Gen.Pre_finite_inputs
import proofs.«169809_j36979668418994_2_alg».proof.Proof.KernelRun
import proofs.«169809_j36979668418994_2_alg».proof.Proof.KernelValue
import proofs.«169809_j36979668418994_2_alg».proof.Proof.RefReadP
import proofs.«169809_j36979668418994_2_alg».proof.Proof.RefValue
import proofs.«169809_j36979668418994_2_alg».proof.Proof.PreFinite
import proofs.«169809_j36979668418994_2_alg».proof.Proof.Region1
import Idealize.ShloMosaic.Adequacy
import Idealize.ShloMosaic.Init

noncomputable section

namespace Cert.Proof

open Idealize.ShloMosaic Idealize.SL.Sem

/-- The kernel runs and keeps its arguments (the generated frame). -/
theorem frame_kernel : Cert.frame_Kernel := fun m ρ _ => Cert.Kernel.Gen.frame m ρ

/-- The idealized kernel runs and keeps its arguments (the generated frame). -/
theorem frame_kernelIdeal : Cert.frame_KernelIdeal := fun m ρ _ => Cert.KernelIdeal.Gen.frame m ρ

/-- The reference runs and keeps its arguments (the reference run, its result forgotten). -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal instance, from arguments that agree and are real numbers, both programs end holding the array of
    scalar log-softmaxes of the reference logits. -/
theorem algebraic : Cert.algebraic_KernelIdeal_ReferenceIdeal := by
  intro m ρ m' ρ' hpre hagree
  refine ⟨fun c => Cert.Sage.Kernel.out1G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Gen.mem_uc Cert.KernelIdeal.main_v48 (by decide))).trans (Cert.Sage.Kernel.kernel_value m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c),
       (h c _ (Cert.KernelIdeal.Gen.mem_uc Cert.KernelIdeal.main_arg4 (by decide))).trans (Cert.KernelIdeal.Gen.W6_main_arg4 m ρ c),
       (h c _ (Cert.KernelIdeal.Gen.mem_uc Cert.KernelIdeal.main_arg5 (by decide))).trans (Cert.KernelIdeal.Gen.W6_main_arg5 m ρ c),
       (h c _ (Cert.KernelIdeal.Gen.mem_uc Cert.KernelIdeal.main_arg6 (by decide))).trans (Cert.KernelIdeal.Gen.W6_main_arg6 m ρ c),
       (h c _ (Cert.KernelIdeal.Gen.mem_uc Cert.KernelIdeal.main_arg7 (by decide))).trans (Cert.KernelIdeal.Gen.W6_main_arg7 m ρ c),
       (h c _ (Cert.KernelIdeal.Gen.mem_uc Cert.KernelIdeal.main_arg8 (by decide))).trans (Cert.KernelIdeal.Gen.W6_main_arg8 m ρ c),
       (h c _ (Cert.KernelIdeal.Gen.mem_uc Cert.KernelIdeal.main_arg9 (by decide))).trans (Cert.KernelIdeal.Gen.W6_main_arg9 m ρ c)⟩)
      (Cert.KernelIdeal.RunAll.run_all (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9⟩ := hagree c
    obtain ⟨f0, f2, f3, f4, f5, f6, f7, f8, f9⟩ := Cert.Sage.pre_finite _ _ _ _ _ _ _ _ _ _ (hpre c)
    rw [Cert.ReferenceIdeal.ReadP.val_main_v59_eq, a0, a1, a2, a3, a4, a5, a6, a7, a8, a9]
    exact Cert.Sage.ref_eq_out1G _ _ _ _ _ _ _ _ _ _ f0 f2 f3 f4 f5 f6 f7 f8 f9

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
